-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x1024 .f32) (main_arg1 : FVec F S1024 .f32) (main_arg2 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8192x1024 : Shape := ⟨2, ![8192, 1024]⟩
abbrev S1024 : Shape := ⟨1, ![1024]⟩
abbrev S1x1024 : Shape := ⟨2, ![1, 1024]⟩
abbrev S512x128 : Shape := ⟨2, ![512, 128]⟩
abbrev S1x128 : Shape := ⟨2, ![1, 128]⟩
abbrev S8192x128 : Shape := ⟨2, ![8192, 128]⟩
abbrev S128 : Shape := ⟨1, ![128]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S8192x1024, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S8192x128, .f32⟩
  | .local _ .vmem, ⟨7, _⟩ => ⟨S8192x128, .f32⟩
  | .local _ .vmem, ⟨8, _⟩ => ⟨S8192x128, .f32⟩
  | .local _ .vmem, ⟨9, _⟩ => ⟨S1x128, .f32⟩
  | .local _ .vmem, ⟨10, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_off1 (i : grid0.Coords) : Fin 2 → Nat :=
  let arg1 : BitVec 32 := BitVec.ofNat 32 (i 1).val
  let c512_i32 : BitVec 32 := 512#32
  let v19 : BitVec 32 := Scalar.muli arg1 c512_i32
  let v20 : Index := Scalar.indexCast v19
  let c0_11 : Index := 0#32
  ![v20.toNat, 0]
def k0_cond2 (i : grid0.Coords) : BitVec 1 :=
  let arg1 : BitVec 32 := BitVec.ofNat 32 (i 1).val
  let c15_i32 : BitVec 32 := 15#32
  let v24 : BitVec 1 := Scalar.cmpi .eq arg1 c15_i32
  let v25 : BitVec 32 := Scalar.extui v24
  let c0_i32_12 : BitVec 32 := 0#32
  let v26 : BitVec 1 := Scalar.cmpi .ne v25 c0_i32_12
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1024_S1x1024 : S1024.ShapeCasts S1x1024
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S512x128_S512x128_0_0 : ∀ a, (![0, 0] : Fin 2 → Nat) a + S512x128.size a ≤ S512x128.size a
  h_S512x128 : 0 < S512x128.numel
  reduces_S512x128_S128 : S512x128.Reduces [0] S128
  shapeCasts_S128_S1x128 : S128.ShapeCasts S1x128
  shapeCasts_S512x128_S512x128 : S512x128.ShapeCasts S512x128
  inb_S8192x128_S8192x128_0_0 : ∀ a, (![0, 0] : Fin 2 → Nat) a + S8192x128.size a ≤ S8192x128.size a
  h_S8192x128 : 0 < S8192x128.numel
  broadcasts_S1x128_S8192x128 : S1x128.Broadcasts S8192x128
  hrank0 : 0 < grid0.rank
  k0_off1_inb : ∀ i : grid0.Coords, ∀ a, (k0_off1 i) a + S512x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x1024.size a
  hwx0_0 : ∀ i : grid0.Coords, EltTy.bits .f32 = 32 ∨ (Rect.block (s := S8192x1024) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x1024.size a
  hwx0_1 : ∀ i : grid0.Coords, EltTy.bits .f32 = 32 ∨ (Rect.block (s := S1x1024) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x1024.size a
  hwx0_2 : ∀ i : grid0.Coords, EltTy.bits .f32 = 32 ∨ (Rect.block (s := S1x1024) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S8192x1024.size a
  hwx0_3 : ∀ i : grid0.Coords, EltTy.bits .f32 = 32 ∨ (Rect.block (s := S8192x1024) S8192x128.size (cc0_transform_3 i) (hinb0_3 i)).WholeWords (EltTy.packing .f32)

variable [Facts₀]

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev grid1 : Pipeline.Grid := ⟨2, ![1, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  inb_S512x1024_S512x1024_0_0 : ∀ a, (![0, 0] : Fin 2 → Nat) a + S512x1024.size a ≤ S512x1024.size a
  h_S512x1024 : 0 < S512x1024.numel
  shapeCasts_S1x1024_S1x1024 : S1x1024.ShapeCasts S1x1024
  reduces_S512x1024_S1024 : S512x1024.Reduces [0] S1024
  broadcasts_S1x1024_S512x1024 : S1x1024.Broadcasts S512x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 false = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S8192x1024.size a
  hwx1_5 : ∀ i : grid1.Coords, EltTy.bits .f32 = 32 ∨ (Rect.block (s := S8192x1024) S512x1024.size (cc1_transform_5 i) (hinb1_5 i)).WholeWords (EltTy.packing .f32)

variable [Facts₀]

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S1x1024.size cc0_transform_1 reads0_1 true false 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S1x1024.size cc0_transform_2 reads0_2 true false 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S1x1024.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v2_1) S1x1024.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x1024.size cc1_transform_3 reads1_3 false false 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x1024.size cc1_transform_4 reads1_4 false false 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== Proof.K.Cases.lean ====
import proofs.«101858_g2000105174111989_pallasbulk_1044_5_alg».proof.Proof.Gen.Kernel.Frame
import proofs.«101858_g2000105174111989_pallasbulk_1044_5_alg».proof.Proof.Gen.Kernel.Skeleton
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals of the body -/

/-- The first conditional of the body: the tile index is zero. -/
abbrev cond0 (i : grid0.Coords) : Prop := (Scalar.cmpi .ne (Scalar.extui (Scalar.cmpi .eq (BitVec.ofNat 32 (i 1).val) 0#32)) 0#32) = 1#1
/-- It holds at the points whose number is a multiple of sixteen. -/
theorem hcond0 : ∀ t : Fin cfg0.N, cond0 (grid0.coords t) ↔ t.val % 16 = 0 :=
  (by decide +kernel : ∀ t : Fin grid0.N, cond0 (grid0.coords t) ↔ t.val % 16 = 0)
/-- The second conditional of the body: the tile index is fifteen. -/
abbrev cond1 (i : grid0.Coords) : Prop := k0_cond2 i = 1#1
/-- It holds at the points whose number is fifteen modulo sixteen. -/
theorem hcond1 : ∀ t : Fin cfg0.N, cond1 (grid0.coords t) ↔ t.val % 16 = 15 :=
  (by decide +kernel : ∀ t : Fin grid0.N, cond1 (grid0.coords t) ↔ t.val % 16 = 15)

/-! ## The body in each of its three cases

In every case the strip buffer `arg6` is handed over at contents `fs0` and comes back with the point's tile
written into it; the two running totals `arg7`, `arg8` come back with their pieces written; the output buffer
`arg5` is untouched unless the tile is the last one, when it is stored whole. -/

set_option maxHeartbeats 1000000 in
/-- First tile of a strip: the totals are zeroed, then the tile is added and stashed. -/
noncomputable def runA (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S1x128 .f32) (harg8 : arg8.IsWhole) (hc0 : cond0 i) (hc1 : ¬cond1 i)
    (x0 : Vec F S512x128 .f32) (x1 : Vec F S1x128 .f32) (x2 : Vec F S1x128 .f32) (d3 : Vec F S8192x128 .f32)
    (ds0 : Vec F S8192x128 .f32) :
    Σ' (LS0 : List (View.Piece (Elt F) S8192x128 .f32)) (LS1 : List (View.Piece (Elt F) S1x128 .f32)), { LS2 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare ds0 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare (arg6.view.read (Elt F) (arg6.view.writes (Elt F) (harg6.unread ds0) LS0)) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__bn_stream_kernel i arg2 harg2 arg3 harg3 arg4 harg4 arg5 harg5 arg6 harg6 arg7 harg7 arg8 harg8) K } := by
  refine ⟨?_, ?_, ?_, fun E K => ?run⟩
  case run =>
    simp only [cc0__bn_stream_kernel_eq_skeleton]; unfold cc0__bn_stream_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact hf3
      iexact H3
    isplitl [HS0]
    · iexists _; isplitr; swap; · iexact HS0
      ipureintro; rfl
    isplitl [HS1]; · iexists _; iexact HS1
    iexists _; iexact HS2

set_option maxHeartbeats 1000000 in
/-- A middle tile: the tile is added to the totals and stashed. -/
noncomputable def runB (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S1x128 .f32) (harg8 : arg8.IsWhole) (hc0 : ¬cond0 i) (hc1 : ¬cond1 i)
    (x0 : Vec F S512x128 .f32) (x1 : Vec F S1x128 .f32) (x2 : Vec F S1x128 .f32) (d3 : Vec F S8192x128 .f32) (xs1 : Vec F S1x128 .f32) (xs2 : Vec F S1x128 .f32)
    (ds0 : Vec F S8192x128 .f32) :
    Σ' (LS0 : List (View.Piece (Elt F) S8192x128 .f32)) (LS1 : List (View.Piece (Elt F) S1x128 .f32)), { LS2 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare ds0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare (arg6.view.read (Elt F) (arg6.view.writes (Elt F) (harg6.unread ds0) LS0)) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__bn_stream_kernel i arg2 harg2 arg3 harg3 arg4 harg4 arg5 harg5 arg6 harg6 arg7 harg7 arg8 harg8) K } := by
  refine ⟨?_, ?_, ?_, fun E K => ?run⟩
  case run =>
    simp only [cc0__bn_stream_kernel_eq_skeleton]; unfold cc0__bn_stream_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact hf3
      iexact H3
    isplitl [HS0]
    · iexists _; isplitr; swap; · iexact HS0
      ipureintro; rfl
    isplitl [HS1]; · iexists _; iexact HS1
    iexists _; iexact HS2

set_option maxHeartbeats 1000000 in
/-- The last tile of a strip: the tile is added and stashed, then the whole strip is normalised into the output buffer. -/
noncomputable def runC (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S1x128 .f32) (harg8 : arg8.IsWhole) (hc0 : ¬cond0 i) (hc1 : cond1 i)
    (x0 : Vec F S512x128 .f32) (x1 : Vec F S1x128 .f32) (x2 : Vec F S1x128 .f32) (xs1 : Vec F S1x128 .f32) (xs2 : Vec F S1x128 .f32)
    (ds0 : Vec F S8192x128 .f32) :
    Σ' (LO : List (View.Piece (Elt F) S8192x128 .f32)) (LS0 : List (View.Piece (Elt F) S8192x128 .f32)) (LS1 : List (View.Piece (Elt F) S1x128 .f32)), { LS2 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare ds0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ owns (c : Thread nD τ) arg6 fullShare (arg6.view.read (Elt F) (arg6.view.writes (Elt F) (harg6.unread ds0) LS0)) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__bn_stream_kernel i arg2 harg2 arg3 harg3 arg4 harg4 arg5 harg5 arg6 harg6 arg7 harg7 arg8 harg8) K } := by
  refine ⟨?_, ?_, ?_, ?_, fun E K => ?run⟩
  case run =>
    simp only [cc0__bn_stream_kernel_eq_skeleton]; unfold cc0__bn_stream_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _; isplitr; swap; · iexact HS0
      ipureintro; rfl
    isplitl [HS1]; · iexists _; iexact HS1
    iexists _; iexact HS2

end Cert.Kernel.Hand

end
-- ==== Proof.K.Pieces.lean ====
import proofs.«101858_g2000105174111989_pallasbulk_1044_5_alg».proof.Proof.K.Cases
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem

variable {F : FTy → Type} [FloatOps F]

/-! ## What each case's stores leave, read back as values

The strip buffer receives one piece: the point's tile at the tile's rows.  Each running total is stored whole, its
new value the tile's column sums added to the old value (zero at the first tile).  At the last tile the output
buffer is stored whole with the normalised strip. -/

theorem hz : (![0, 0] : Fin 2 → Nat) = fun _ => 0 := funext fun a => by fin_cases a <;> rfl

/-! ### First tile -/

theorem A_S0 (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S1x128 .f32) (harg8 : arg8.IsWhole) (hc0 : cond0 i) (hc1 : ¬cond1 i)
    (x0 : Vec F S512x128 .f32) (x1 : Vec F S1x128 .f32) (x2 : Vec F S1x128 .f32) (d3 : Vec F S8192x128 .f32)
    (ds0 : Vec F S8192x128 .f32) :
    (runA c i arg2 harg2 arg3 harg3 arg4 harg4 arg5 harg5 arg6 harg6 arg7 harg7 arg8 harg8 hc0 hc1 x0 x1 x2 d3 ds0).1 = [(⟨Rect.unit (s := S8192x128) (k0_off1 i) S512x128.size (k0_off1_inb i), k0_pay5 x0⟩ : View.Piece (Elt F) S8192x128 .f32)] := by
  unfold runA
  dsimp only
  sl_unfold_words
  simp only [View.readAt_eq_ld, harg2.read_unread, harg3.read_unread, harg4.read_unread, harg7.read_unread, harg8.read_unread, View.ld_unit_zero (S := S512x128) hz, View.ld_unit_zero (S := S1x128) hz, View.ld_unit_zero (S := S8192x128) hz]

theorem A_S1 (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S1x128 .f32) (harg8 : arg8.IsWhole) (hc0 : cond0 i) (hc1 : ¬cond1 i)
    (x0 : Vec F S512x128 .f32) (x1 : Vec F S1x128 .f32) (x2 : Vec F S1x128 .f32) (d3 : Vec F S8192x128 .f32)
    (ds0 : Vec F S8192x128 .f32) (f : arg7.view.ty.Contents (Elt F)) :
    arg7.view.read (Elt F) (arg7.view.writes (Elt F) f (runA c i arg2 harg2 arg3 harg3 arg4 harg4 arg5 harg5 arg6 harg6 arg7 harg7 arg8 harg8 hc0 hc1 x0 x1 x2 d3 ds0).2.1) = k0_pay3 x0 (k0_pay1 (F := F)) := by
  rw [View.read_writes_eq_canon _ _ _ (View.cover_of_tiledL _ S1x128.size (by sl_kernel_rfl))]
  unfold runA
  dsimp only
  sl_unfold_words
  rw [View.canon_cons_unit_zero (S := S1x128) hz, View.readCov_unit_zero (S := S1x128) _ hz]
  simp only [View.readAt_eq_ld, harg2.read_unread, harg3.read_unread, harg4.read_unread, harg7.read_unread, harg8.read_unread, View.ld_unit_zero (S := S512x128) hz, View.ld_unit_zero (S := S1x128) hz, View.ld_unit_zero (S := S8192x128) hz]

theorem A_S2 (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S1x128 .f32) (harg8 : arg8.IsWhole) (hc0 : cond0 i) (hc1 : ¬cond1 i)
    (x0 : Vec F S512x128 .f32) (x1 : Vec F S1x128 .f32) (x2 : Vec F S1x128 .f32) (d3 : Vec F S8192x128 .f32)
    (ds0 : Vec F S8192x128 .f32) (f : arg8.view.ty.Contents (Elt F)) :
    arg8.view.read (Elt F) (arg8.view.writes (Elt F) f (runA c i arg2 harg2 arg3 harg3 arg4 harg4 arg5 harg5 arg6 harg6 arg7 harg7 arg8 harg8 hc0 hc1 x0 x1 x2 d3 ds0).2.2.1) = k0_pay4 x0 (k0_pay2 (F := F)) := by
  rw [View.read_writes_eq_canon _ _ _ (View.cover_of_tiledL _ S1x128.size (by sl_kernel_rfl))]
  unfold runA
  dsimp only
  sl_unfold_words
  rw [View.canon_cons_unit_zero (S := S1x128) hz, View.readCov_unit_zero (S := S1x128) _ hz]
  simp only [View.readAt_eq_ld, harg2.read_unread, harg3.read_unread, harg4.read_unread, harg7.read_unread, harg8.read_unread, View.ld_unit_zero (S := S512x128) hz, View.ld_unit_zero (S := S1x128) hz, View.ld_unit_zero (S := S8192x128) hz]

/-! ### A middle tile -/

theorem B_S0 (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S1x128 .f32) (harg8 : arg8.IsWhole) (hc0 : ¬cond0 i) (hc1 : ¬cond1 i)
    (x0 : Vec F S512x128 .f32) (x1 : Vec F S1x128 .f32) (x2 : Vec F S1x128 .f32) (d3 : Vec F S8192x128 .f32) (xs1 : Vec F S1x128 .f32) (xs2 : Vec F S1x128 .f32)
    (ds0 : Vec F S8192x128 .f32) :
    (runB c i arg2 harg2 arg3 harg3 arg4 harg4 arg5 harg5 arg6 harg6 arg7 harg7 arg8 harg8 hc0 hc1 x0 x1 x2 d3 xs1 xs2 ds0).1 = [(⟨Rect.unit (s := S8192x128) (k0_off1 i) S512x128.size (k0_off1_inb i), k0_pay5 x0⟩ : View.Piece (Elt F) S8192x128 .f32)] := by
  unfold runB
  dsimp only
  sl_unfold_words
  simp only [View.readAt_eq_ld, harg2.read_unread, harg3.read_unread, harg4.read_unread, harg7.read_unread, harg8.read_unread, View.ld_unit_zero (S := S512x128) hz, View.ld_unit_zero (S := S1x128) hz, View.ld_unit_zero (S := S8192x128) hz]

theorem B_S1 (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S1x128 .f32) (harg8 : arg8.IsWhole) (hc0 : ¬cond0 i) (hc1 : ¬cond1 i)
    (x0 : Vec F S512x128 .f32) (x1 : Vec F S1x128 .f32) (x2 : Vec F S1x128 .f32) (d3 : Vec F S8192x128 .f32) (xs1 : Vec F S1x128 .f32) (xs2 : Vec F S1x128 .f32)
    (ds0 : Vec F S8192x128 .f32) (f : arg7.view.ty.Contents (Elt F)) :
    arg7.view.read (Elt F) (arg7.view.writes (Elt F) f (runB c i arg2 harg2 arg3 harg3 arg4 harg4 arg5 harg5 arg6 harg6 arg7 harg7 arg8 harg8 hc0 hc1 x0 x1 x2 d3 xs1 xs2 ds0).2.1) = k0_pay3 x0 xs1 := by
  rw [View.read_writes_eq_canon _ _ _ (View.cover_of_tiledL _ S1x128.size (by sl_kernel_rfl))]
  unfold runB
  dsimp only
  sl_unfold_words
  rw [View.canon_unit_zero hz]
  simp only [View.readAt_eq_ld, harg2.read_unread, harg3.read_unread, harg4.read_unread, harg7.read_unread, harg8.read_unread, View.ld_unit_zero (S := S512x128) hz, View.ld_unit_zero (S := S1x128) hz, View.ld_unit_zero (S := S8192x128) hz]

theorem B_S2 (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S1x128 .f32) (harg8 : arg8.IsWhole) (hc0 : ¬cond0 i) (hc1 : ¬cond1 i)
    (x0 : Vec F S512x128 .f32) (x1 : Vec F S1x128 .f32) (x2 : Vec F S1x128 .f32) (d3 : Vec F S8192x128 .f32) (xs1 : Vec F S1x128 .f32) (xs2 : Vec F S1x128 .f32)
    (ds0 : Vec F S8192x128 .f32) (f : arg8.view.ty.Contents (Elt F)) :
    arg8.view.read (Elt F) (arg8.view.writes (Elt F) f (runB c i arg2 harg2 arg3 harg3 arg4 harg4 arg5 harg5 arg6 harg6 arg7 harg7 arg8 harg8 hc0 hc1 x0 x1 x2 d3 xs1 xs2 ds0).2.2.1) = k0_pay4 x0 xs2 := by
  rw [View.read_writes_eq_canon _ _ _ (View.cover_of_tiledL _ S1x128.size (by sl_kernel_rfl))]
  unfold runB
  dsimp only
  sl_unfold_words
  rw [View.canon_unit_zero hz]
  simp only [View.readAt_eq_ld, harg2.read_unread, harg3.read_unread, harg4.read_unread, harg7.read_unread, harg8.read_unread, View.ld_unit_zero (S := S512x128) hz, View.ld_unit_zero (S := S1x128) hz, View.ld_unit_zero (S := S8192x128) hz]

/-! ### The last tile -/

theorem C_S0 (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S1x128 .f32) (harg8 : arg8.IsWhole) (hc0 : ¬cond0 i) (hc1 : cond1 i)
    (x0 : Vec F S512x128 .f32) (x1 : Vec F S1x128 .f32) (x2 : Vec F S1x128 .f32) (xs1 : Vec F S1x128 .f32) (xs2 : Vec F S1x128 .f32)
    (ds0 : Vec F S8192x128 .f32) :
    (runC c i arg2 harg2 arg3 harg3 arg4 harg4 arg5 harg5 arg6 harg6 arg7 harg7 arg8 harg8 hc0 hc1 x0 x1 x2 xs1 xs2 ds0).2.1 = [(⟨Rect.unit (s := S8192x128) (k0_off1 i) S512x128.size (k0_off1_inb i), k0_pay5 x0⟩ : View.Piece (Elt F) S8192x128 .f32)] := by
  unfold runC
  dsimp only
  sl_unfold_words
  simp only [View.readAt_eq_ld, harg2.read_unread, harg3.read_unread, harg4.read_unread, harg7.read_unread, harg8.read_unread, View.ld_unit_zero (S := S512x128) hz, View.ld_unit_zero (S := S1x128) hz, View.ld_unit_zero (S := S8192x128) hz]

theorem C_S1 (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S1x128 .f32) (harg8 : arg8.IsWhole) (hc0 : ¬cond0 i) (hc1 : cond1 i)
    (x0 : Vec F S512x128 .f32) (x1 : Vec F S1x128 .f32) (x2 : Vec F S1x128 .f32) (xs1 : Vec F S1x128 .f32) (xs2 : Vec F S1x128 .f32)
    (ds0 : Vec F S8192x128 .f32) (f : arg7.view.ty.Contents (Elt F)) :
    arg7.view.read (Elt F) (arg7.view.writes (Elt F) f (runC c i arg2 harg2 arg3 harg3 arg4 harg4 arg5 harg5 arg6 harg6 arg7 harg7 arg8 harg8 hc0 hc1 x0 x1 x2 xs1 xs2 ds0).2.2.1) = k0_pay3 x0 xs1 := by
  rw [View.read_writes_eq_canon _ _ _ (View.cover_of_tiledL _ S1x128.size (by sl_kernel_rfl))]
  unfold runC
  dsimp only
  sl_unfold_words
  rw [View.canon_unit_zero hz]
  simp only [View.readAt_eq_ld, harg2.read_unread, harg3.read_unread, harg4.read_unread, harg7.read_unread, harg8.read_unread, View.ld_unit_zero (S := S512x128) hz, View.ld_unit_zero (S := S1x128) hz, View.ld_unit_zero (S := S8192x128) hz]

theorem C_S2 (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S1x128 .f32) (harg8 : arg8.IsWhole) (hc0 : ¬cond0 i) (hc1 : cond1 i)
    (x0 : Vec F S512x128 .f32) (x1 : Vec F S1x128 .f32) (x2 : Vec F S1x128 .f32) (xs1 : Vec F S1x128 .f32) (xs2 : Vec F S1x128 .f32)
    (ds0 : Vec F S8192x128 .f32) (f : arg8.view.ty.Contents (Elt F)) :
    arg8.view.read (Elt F) (arg8.view.writes (Elt F) f (runC c i arg2 harg2 arg3 harg3 arg4 harg4 arg5 harg5 arg6 harg6 arg7 harg7 arg8 harg8 hc0 hc1 x0 x1 x2 xs1 xs2 ds0).2.2.2.1) = k0_pay4 x0 xs2 := by
  rw [View.read_writes_eq_canon _ _ _ (View.cover_of_tiledL _ S1x128.size (by sl_kernel_rfl))]
  unfold runC
  dsimp only
  sl_unfold_words
  rw [View.canon_unit_zero hz]
  simp only [View.readAt_eq_ld, harg2.read_unread, harg3.read_unread, harg4.read_unread, harg7.read_unread, harg8.read_unread, View.ld_unit_zero (S := S512x128) hz, View.ld_unit_zero (S := S1x128) hz, View.ld_unit_zero (S := S8192x128) hz]

/-- The output buffer after the last tile: the normalisation of what the strip buffer then holds, by the two
    totals as just updated and the gain and offset blocks. -/
theorem C_O (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S1x128 .f32) (harg8 : arg8.IsWhole) (hc0 : ¬cond0 i) (hc1 : cond1 i)
    (x0 : Vec F S512x128 .f32) (x1 : Vec F S1x128 .f32) (x2 : Vec F S1x128 .f32) (xs1 : Vec F S1x128 .f32) (xs2 : Vec F S1x128 .f32)
    (ds0 : Vec F S8192x128 .f32) (f : arg5.view.ty.Contents (Elt F)) :
    arg5.view.read (Elt F) (arg5.view.writes (Elt F) f (runC c i arg2 harg2 arg3 harg3 arg4 harg4 arg5 harg5 arg6 harg6 arg7 harg7 arg8 harg8 hc0 hc1 x0 x1 x2 xs1 xs2 ds0).1)
      = k0_pay6 (k0_pay3 x0 xs1) (k0_pay4 x0 xs2) x1 (arg6.view.read (Elt F) (arg6.view.writes (Elt F) (harg6.unread ds0) [(⟨Rect.unit (s := S8192x128) (k0_off1 i) S512x128.size (k0_off1_inb i), k0_pay5 x0⟩ : View.Piece (Elt F) S8192x128 .f32)])) x2 := by
  rw [View.read_writes_eq_canon _ _ _ (View.cover_of_tiledL _ S8192x128.size (by sl_kernel_rfl))]
  unfold runC
  dsimp only
  sl_unfold_words
  rw [View.canon_unit_zero hz]
  simp only [View.readAt_eq_ld, harg2.read_unread, harg3.read_unread, harg4.read_unread, harg7.read_unread, harg8.read_unread, View.ld_unit_zero (S := S512x128) hz, View.ld_unit_zero (S := S1x128) hz, View.ld_unit_zero (S := S8192x128) hz, View.readCov_unit_zero (S := S1x128) _ hz]

end Cert.Kernel.Hand

end
-- ==== Proof.K.Data.lean ====
import proofs.«101858_g2000105174111989_pallasbulk_1044_5_alg».proof.Proof.K.Pieces
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid: point `t` is tile `t % 16` of strip `t / 16` -/

theorem N128 : cfg0.N = 128 := N_0

/-- The tile's rows start at row `512 · (t % 16)` of the strip buffer. -/
theorem off_eq : ∀ t : Fin cfg0.N, k0_off1 (grid0.coords t) = ![512 * (t.val % 16), 0] :=
  (by decide +kernel : ∀ t : Fin grid0.N, k0_off1 (grid0.coords t) = ![512 * (t.val % 16), 0])

/-- The inputs' windows are never idle; the output's is idle except at a strip's last tile, where it is written back. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3_iff : ∀ t : Fin cfg0.N, cfg0.idle 3 (grid0.coords t) = true ↔ ¬t.val % 16 = 15 :=
  (by decide +kernel : ∀ t : Fin grid0.N, cfg0.idle 3 (grid0.coords t) = true ↔ ¬t.val % 16 = 15)

/-- The current staging memrefs at a point and the three scratch buffers. -/
abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8192x128 .f32 := win0_3.stage (cfg0.slots t 3)
abbrev hs3 (t : Fin cfg0.N) : (ms3 t).IsWhole := hstage0_3 ((cfg0.slots t 3).cast nbuf0_3)
abbrev scX : Memref sig .tc .vmem S8192x128 .f32 := Memref.whole cc0_scratch0
abbrev scS : Memref sig .tc .vmem S1x128 .f32 := Memref.whole cc0_scratch1
abbrev scQ : Memref sig .tc .vmem S1x128 .f32 := Memref.whole cc0_scratch2
theorem hscX : (scX : Memref sig .tc .vmem S8192x128 .f32).IsWhole := Memref.isWhole_whole _
theorem hscS : (scS : Memref sig .tc .vmem S1x128 .f32).IsWhole := Memref.isWhole_whole _
theorem hscQ : (scQ : Memref sig .tc .vmem S1x128 .f32).IsWhole := Memref.isWhole_whole _

/-- The class invariant with the scratch buffers as memrefs owned at some contents. -/
theorem PhiA_eq (c : Dev nD) :
    (Pipeline.ΦA spec0 c : sProp 𝕄)
      = iprop(iprop((∃ d, owns (c : Thread nD τ) scX fullShare d) ∗ (∃ d, owns (c : Thread nD τ) scS fullShare d) ∗ (∃ d, owns (c : Thread nD τ) scQ fullShare d)) ∗ (∃ r, prngReg c r)) := by
  unfold Pipeline.ΦA; rw [scopedRest0_eq]; simp only [scX, scS, scQ, owns_whole]; try rfl

/-! ## What the scratch buffers hold after each point -/

/-- The input tile of point `t`, as a 512 × 128 block. -/
abbrev tile (c : Dev nD) (t : Fin cfg0.N) : Vec F S512x128 .f32 := iblk m c 0 t

/-- The two running totals after point `n`: restarted from zero at a strip's first tile, else the point before's
    plus this tile's column sums (of the entries, of their squares). -/
def totals (c : Dev nD) : (n : ℕ) → n < cfg0.N → Vec F S1x128 .f32 × Vec F S1x128 .f32
  | 0, h => (k0_pay3 (tile m c ⟨0, h⟩) (k0_pay1 (F := F)), k0_pay4 (tile m c ⟨0, h⟩) (k0_pay2 (F := F)))
  | n + 1, h =>
    if (n + 1) % 16 = 0 then (k0_pay3 (tile m c ⟨n + 1, h⟩) (k0_pay1 (F := F)), k0_pay4 (tile m c ⟨n + 1, h⟩) (k0_pay2 (F := F)))
    else (k0_pay3 (tile m c ⟨n + 1, h⟩) (totals c n (Nat.lt_of_succ_lt h)).1, k0_pay4 (tile m c ⟨n + 1, h⟩) (totals c n (Nat.lt_of_succ_lt h)).2)

theorem totals_first (c : Dev nD) (t : Fin cfg0.N) (h0 : t.val % 16 = 0) :
    totals m c t.val t.isLt = (k0_pay3 (tile m c t) (k0_pay1 (F := F)), k0_pay4 (tile m c t) (k0_pay2 (F := F))) := by
  obtain ⟨n, hn⟩ := t
  cases n with
  | zero => rfl
  | succ n => exact (if_pos h0).trans rfl

theorem totals_next (c : Dev nD) (t : Fin cfg0.N) (h0 : ¬t.val % 16 = 0) :
    totals m c t.val t.isLt = (k0_pay3 (tile m c t) (totals m c (t.val - 1) (Nat.lt_of_le_of_lt (Nat.sub_le _ _) t.isLt)).1,
      k0_pay4 (tile m c t) (totals m c (t.val - 1) (Nat.lt_of_le_of_lt (Nat.sub_le _ _) t.isLt)).2) := by
  obtain ⟨n, hn⟩ := t
  cases n with
  | zero => exact absurd (Nat.zero_mod _) h0
  | succ n => exact (if_neg h0).trans rfl

/-- The strip buffer after point `t`: tiles `0 … t % 16` of the strip are in place, tile `i'` at rows `512 · i' …`. -/
def StripInv (c : Dev nD) (t : Fin cfg0.N) (d : Vec F S8192x128 .f32) : Prop :=
  ∀ (i' : ℕ) (hi : i' ≤ t.val % 16) (r : Fin 512) (l : Fin 128),
    d (ix2 (⟨512 * i' + r.val, by have := Nat.mod_lt t.val (show 0 < 16 by norm_num); omega⟩ : Fin 8192) l)
      = tile m c ⟨16 * (t.val / 16) + i', by have := t.isLt; have := N128; have := Nat.mod_lt t.val (show 0 < 16 by norm_num); omega⟩ (ix2 r l)

/-- The whole strip `t / 16` of the input, as an 8192 × 128 block: row `ρ` is row `ρ % 512` of tile `ρ / 512`. -/
def stripOf (c : Dev nD) (t : Fin cfg0.N) : Vec F S8192x128 .f32 := fun y =>
  tile m c ⟨16 * (t.val / 16) + (y 0).val / 512, by have := t.isLt; have := N128; have := idx2_lt0 y; omega⟩
    (ix2 (⟨(y 0).val % 512, Nat.mod_lt _ (by norm_num)⟩ : Fin 512) (⟨(y 1).val, idx2_lt1 y⟩ : Fin 128))

/-! ## The region invariant and the proof data -/

/-- The region invariant before position `n`: at the start the class's (every scratch at anything); afterwards the
    strip buffer at SOME contents with the strip's tiles so far in place, the two totals at their values after the
    point before, and the generator register at some state. -/
def PhiS (c : Dev nD) : (n : ℕ) → n ≤ cfg0.N → sProp 𝕄
  | 0, _ => Pipeline.ΦA spec0 c
  | n + 1, hn => iprop(iprop((∃ d, ⌜StripInv m c ⟨n, hn⟩ d⌝ ∗ owns (c : Thread nD τ) scX fullShare d) ∗ owns (c : Thread nD τ) scS fullShare ((totals m c n hn).1) ∗ owns (c : Thread nD τ) scQ fullShare ((totals m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, ⌜StripInv m c ⟨n, hn⟩ d⌝ ∗ owns (c : Thread nD τ) scX fullShare d) ∗ owns (c : Thread nD τ) scS fullShare ((totals m c n hn).1) ∗ owns (c : Thread nD τ) scQ fullShare ((totals m c n hn).2)) ∗ (∃ r, prngReg c r)) := rfl

theorem PhiS_pos (c : Dev nD) (n : ℕ) (h : n ≤ cfg0.N) (hz : n ≠ 0) :
    PhiS m c n h = iprop(iprop((∃ d, ⌜StripInv m c ⟨n - 1, by omega⟩ d⌝ ∗ owns (c : Thread nD τ) scX fullShare d) ∗ owns (c : Thread nD τ) scS fullShare ((totals m c (n - 1) (by omega)).1) ∗ owns (c : Thread nD τ) scQ fullShare ((totals m c (n - 1) (by omega)).2)) ∗ (∃ r, prngReg c r)) := by
  cases n with
  | zero => exact absurd rfl hz
  | succ n => rfl

/-- What the output buffer is stored with at a strip's last tile: the strip normalised by its two totals, the gain
    block and the offset block. (Stated at every point; only the last tile of a strip writes it back.) -/
def outBlock (c : Dev nD) (t : Fin cfg0.N) : Vec F S8192x128 .f32 :=
  k0_pay6 (totals m c t.val t.isLt).1 (totals m c t.val t.isLt).2 (iblk m c 1 t) (stripOf m c t) (iblk m c 2 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outBlock m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

end Cert.Kernel.Hand

end
-- ==== Proof.K.Body.lean ====
import proofs.«101858_g2000105174111989_pallasbulk_1044_5_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Storing a tile into the strip buffer

Rows `o … o + 511` take the tile; every other row keeps what the buffer held. -/

section StripWrite

variable (M : Memref sig .tc .vmem S8192x128 .f32) (hM : M.IsWhole) (ds0 : Vec F S8192x128 .f32) (x0 : Vec F S512x128 .f32)
  (off : Fin 2 → ℕ) (inb : ∀ a, off a + S512x128.size a ≤ S8192x128.size a) (o : ℕ) (hoff : off = ![o, 0])

include hoff in
theorem strip_hit (q : Fin 8192) (r : Fin 512) (l : Fin 128) (hq : q.val = o + r.val) :
    M.view.read (Elt F) (M.view.writes (Elt F) (hM.unread ds0) [(⟨Rect.unit (s := S8192x128) off S512x128.size inb, k0_pay5 x0⟩ : View.Piece (Elt F) S8192x128 .f32)]) (ix2 q l)
      = x0 (ix2 r l) :=
  (View.read_writes_cons_rows_of_mem M.view (hM.unread ds0) inb (k0_pay5 x0) [] (ix2 q l) (ix2 r l) hoff hq rfl).trans
    (congrFun (shapeCast_self x0 _) (ix2 r l))

include hoff in
theorem strip_miss (q : Fin 8192) (l : Fin 128) (hq : q.val < o ∨ o + 512 ≤ q.val) :
    M.view.read (Elt F) (M.view.writes (Elt F) (hM.unread ds0) [(⟨Rect.unit (s := S8192x128) off S512x128.size inb, k0_pay5 x0⟩ : View.Piece (Elt F) S8192x128 .f32)]) (ix2 q l)
      = ds0 (ix2 q l) :=
  (View.read_writes_cons_rows_of_not_mem M.view (hM.unread ds0) inb (k0_pay5 x0) [] (ix2 q l) hoff rfl hq).trans
    (by rw [View.writes_nil, hM.read_unread])

end StripWrite

/-- The tile of a point, named by any equal point number. -/
theorem tile_congr (c : Dev nD) (t t' : Fin cfg0.N) (h : t'.val = t.val) (r : Fin 512) (l : Fin 128) :
    tile m c t' (ix2 r l) = tile m c t (ix2 r l) := by
  obtain rfl : t' = t := Fin.ext h
  rfl

/-- After a strip's first tile is stored, tile 0 is in place. -/
theorem strip_first (c : Dev nD) (t : Fin cfg0.N) (h0 : t.val % 16 = 0) (M : Memref sig .tc .vmem S8192x128 .f32) (hM : M.IsWhole)
    (ds0 : Vec F S8192x128 .f32) :
    StripInv m c t (M.view.read (Elt F) (M.view.writes (Elt F) (hM.unread ds0)
      [(⟨Rect.unit (s := S8192x128) (k0_off1 (grid0.coords t)) S512x128.size (k0_off1_inb (grid0.coords t)), k0_pay5 (tile m c t)⟩ : View.Piece (Elt F) S8192x128 .f32)])) := by
  intro i' hi r l
  have hN : t.val < 128 := lt_of_lt_of_eq t.isLt N128
  have hi0 : i' = 0 := by omega
  subst hi0
  refine (strip_hit M hM ds0 (tile m c t) _ _ (512 * (t.val % 16)) (off_eq t) _ r l (by dsimp only; omega)).trans ?_
  exact (tile_congr m c t _ (by dsimp only; omega) r l).symm

/-- After a later tile is stored, the tiles up to it are in place, given those before it were. -/
theorem strip_next (c : Dev nD) (t : Fin cfg0.N) (h0 : ¬t.val % 16 = 0) (M : Memref sig .tc .vmem S8192x128 .f32) (hM : M.IsWhole)
    (ds0 : Vec F S8192x128 .f32) (hd : StripInv m c ⟨t.val - 1, Nat.lt_of_le_of_lt (Nat.sub_le _ _) t.isLt⟩ ds0) :
    StripInv m c t (M.view.read (Elt F) (M.view.writes (Elt F) (hM.unread ds0)
      [(⟨Rect.unit (s := S8192x128) (k0_off1 (grid0.coords t)) S512x128.size (k0_off1_inb (grid0.coords t)), k0_pay5 (tile m c t)⟩ : View.Piece (Elt F) S8192x128 .f32)])) := by
  intro i' hi r l
  have hN : t.val < 128 := lt_of_lt_of_eq t.isLt N128
  by_cases hlast : i' = t.val % 16
  · subst hlast
    refine (strip_hit M hM ds0 (tile m c t) _ _ (512 * (t.val % 16)) (off_eq t) _ r l (by dsimp only)).trans ?_
    exact (tile_congr m c t _ (by dsimp only; omega) r l).symm
  · refine (strip_miss M hM ds0 (tile m c t) _ _ (512 * (t.val % 16)) (off_eq t) _ l (by dsimp only; omega)).trans ?_
    have h := hd i' (by dsimp only; omega) r l
    refine h.trans ?_
    exact tile_congr m c _ _ (by dsimp only; omega) r l

/-- Once the last tile is stored the buffer holds the whole strip. -/
theorem strip_full (c : Dev nD) (t : Fin cfg0.N) (h1 : t.val % 16 = 15) (d : Vec F S8192x128 .f32) (hd : StripInv m c t d) :
    d = stripOf m c t := by
  funext y
  have hy0 : (y 0).val < 8192 := idx2_lt0 y
  have hy1 : (y 1).val < 128 := idx2_lt1 y
  have e : y = ix2 (⟨512 * ((y 0).val / 512) + (⟨(y 0).val % 512, Nat.mod_lt _ (by norm_num)⟩ : Fin 512).val, by dsimp only; omega⟩ : Fin 8192) (⟨(y 1).val, hy1⟩ : Fin 128) := by
    funext a; match a with
    | ⟨0, _⟩ => exact Fin.ext (show (y 0).val = 512 * ((y 0).val / 512) + (y 0).val % 512 by omega)
    | ⟨1, _⟩ => rfl
  have h := hd ((y 0).val / 512) (by omega) ⟨(y 0).val % 512, Nat.mod_lt _ (by norm_num)⟩ ⟨(y 1).val, hy1⟩
  rw [← e] at h
  exact h

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1000000 in
/-- The body at any point: the inputs hold their blocks; the point's case is decided by its number modulo sixteen;
    the invariant hands over the strip buffer and the totals as the point before left them and takes them back as
    this point leaves them; the output buffer is handed back as found except at a strip's last tile, where it is
    stored with the normalised strip. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt N128
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  by_cases h1 : t.val % 16 = 15
  · -- the last tile of a strip
    have h0 : ¬t.val % 16 = 0 := by omega
    have hz : t.val ≠ 0 := by omega
    rw [show (dats m 0 c).leavesExact 3 t = owns (c : Thread nD τ) (ms3 t) fullShare ((dats m 0 c).after 3 t) from by
      unfold Dat.leavesExact; rw [Bool.eq_false_iff.mpr (fun h => (idle3_iff t).mp h h1)], after3]
    unfold outBlock
    rw [totals_next m c t h0]
    rw [PhiS_castSucc m c t, PhiS_pos m c _ _ hz]
    iintro ⟨⟨⟨⟨%ds0, %hds0, HS0⟩, HS1, HS2⟩, Hg⟩, Ho, ⟨%d0, H0⟩, ⟨%d1, H1⟩, ⟨%d2, H2⟩, ⟨%d3, H3⟩⟩
    iapply ((runC c (grid0.coords t) _ _ _ _ _ _ _ _ _ _ _ _ _ _ (fun h => h0 ((hcond0 t).mp h)) ((hcond1 t).mpr h1) (tile m c t) (iblk m c 1 t) (iblk m c 2 t) _ _ ds0).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%eo, H3⟩, HS0, ⟨%es1, HS1⟩, ⟨%es2, HS2⟩⟩
    isplitl [HS0 HS1 HS2 Hg]
    · isplitl [HS0 HS1 HS2]
      · isplitl [HS0]
        · iexists _; isplitr; swap; · iexact HS0
          ipureintro; rw [C_S0]; exact strip_next m c t h0 _ _ ds0 hds0
        isplitl [HS1]
        · unfold owns; iexists _; isplitr; swap; · iexact HS1
          ipureintro; exact C_S1 ..
        unfold owns; iexists _; isplitr; swap; · iexact HS2
        ipureintro; exact C_S2 ..
      iexact Hg
    isplitl [Ho]; · iexact Ho
    isplitl [H0]; · iexact H0
    isplitl [H1]; · iexact H1
    isplitl [H2]; · iexact H2
    unfold owns; iexists _; isplitr; swap; · iexact H3
    ipureintro
    refine (C_O ..).trans ?_
    rw [strip_full m c t h1 _ (strip_next m c t h0 _ _ ds0 hds0)]
  · have hidle : cfg0.idle 3 (grid0.coords t) = true := (idle3_iff t).mpr h1
    have hnf : (cfg0.win 3).flush t = false := Bool.eq_false_iff.mpr (fun h => h1 ((flush0_3 t).mp h))
    rw [Dat.leavesExact_idle _ 3 t hidle hnf]
    by_cases h0 : t.val % 16 = 0
    · -- the first tile of a strip
      rw [totals_first m c t h0]
      by_cases hz : t.val = 0
      · rw [PhiS_castSucc m c t, PhiS_zero m c _ _ hz, PhiA_eq]
        iintro ⟨⟨⟨⟨%ds0, HS0⟩, HS1, HS2⟩, Hg⟩, Ho, ⟨%d0, H0⟩, ⟨%d1, H1⟩, ⟨%d2, H2⟩, ⟨%d3, H3⟩⟩
        iapply ((runA c (grid0.coords t) _ _ _ _ _ _ _ _ _ _ _ _ _ _ ((hcond0 t).mpr h0) (fun h => h1 ((hcond1 t).mp h)) (tile m c t) (iblk m c 1 t) (iblk m c 2 t) _ ds0).2.2.2 Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, ⟨%es1, HS1⟩, ⟨%es2, HS2⟩⟩
        isplitl [HS0 HS1 HS2 Hg]
        · isplitl [HS0 HS1 HS2]
          · isplitl [HS0]
            · iexists _; isplitr; swap; · iexact HS0
              ipureintro; rw [A_S0]; exact strip_first m c t h0 _ _ ds0
            isplitl [HS1]
            · unfold owns; iexists _; isplitr; swap; · iexact HS1
              ipureintro; exact A_S1 ..
            unfold owns; iexists _; isplitr; swap; · iexact HS2
            ipureintro; exact A_S2 ..
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨⟨⟨%ds0, %hds0, HS0⟩, HS1, HS2⟩, Hg⟩, Ho, ⟨%d0, H0⟩, ⟨%d1, H1⟩, ⟨%d2, H2⟩, ⟨%d3, H3⟩⟩
        iapply ((runA c (grid0.coords t) _ _ _ _ _ _ _ _ _ _ _ _ _ _ ((hcond0 t).mpr h0) (fun h => h1 ((hcond1 t).mp h)) (tile m c t) (iblk m c 1 t) (iblk m c 2 t) _ ds0).2.2.2 Set.univ _)
        isplitl [H0]; · iexact H0
        isplitl [H1]; · iexact H1
        isplitl [H2]; · iexact H2
        isplitl [H3]; · iexact H3
        isplitl [HS0]; · iexact HS0
        isplitl [HS1]; · iexists _; iexact HS1
        isplitl [HS2]; · iexists _; iexact HS2
        iintro ⟨H0, H1, H2, H3, HS0, ⟨%es1, HS1⟩, ⟨%es2, HS2⟩⟩
        isplitl [HS0 HS1 HS2 Hg]
        · isplitl [HS0 HS1 HS2]
          · isplitl [HS0]
            · iexists _; isplitr; swap; · iexact HS0
              ipureintro; rw [A_S0]; exact strip_first m c t h0 _ _ ds0
            isplitl [HS1]
            · unfold owns; iexists _; isplitr; swap; · iexact HS1
              ipureintro; exact A_S1 ..
            unfold owns; iexists _; isplitr; swap; · iexact HS2
            ipureintro; exact A_S2 ..
          iexact Hg
        isplitl [Ho]; · iexact Ho
        isplitl [H0]; · iexact H0
        isplitl [H1]; · iexact H1
        isplitl [H2]; · iexact H2
        iexists _; iexact H3
    · -- a middle tile
      have hz : t.val ≠ 0 := by omega
      rw [totals_next m c t h0]
      rw [PhiS_castSucc m c t, PhiS_pos m c _ _ hz]
      iintro ⟨⟨⟨⟨%ds0, %hds0, HS0⟩, HS1, HS2⟩, Hg⟩, Ho, ⟨%d0, H0⟩, ⟨%d1, H1⟩, ⟨%d2, H2⟩, ⟨%d3, H3⟩⟩
      iapply ((runB c (grid0.coords t) _ _ _ _ _ _ _ _ _ _ _ _ _ _ (fun h => h0 ((hcond0 t).mp h)) (fun h => h1 ((hcond1 t).mp h)) (tile m c t) (iblk m c 1 t) (iblk m c 2 t) _ _ _ ds0).2.2.2 Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, ⟨%es1, HS1⟩, ⟨%es2, HS2⟩⟩
      isplitl [HS0 HS1 HS2 Hg]
      · isplitl [HS0 HS1 HS2]
        · isplitl [HS0]
          · iexists _; isplitr; swap; · iexact HS0
            ipureintro; rw [B_S0]; exact strip_next m c t h0 _ _ ds0 hds0
          isplitl [HS1]
          · unfold owns; iexists _; isplitr; swap; · iexact HS1
            ipureintro; exact B_S1 ..
          unfold owns; iexists _; isplitr; swap; · iexact HS2
          ipureintro; exact B_S2 ..
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N128; omega), PhiA_eq]
  iintro ⟨⟨⟨%d, %hd, HS0⟩, HS1, HS2⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KI.Cases.lean ====
import proofs.«101858_g2000105174111989_pallasbulk_1044_5_alg».proof.Proof.Gen.KernelIdeal.Frame
import proofs.«101858_g2000105174111989_pallasbulk_1044_5_alg».proof.Proof.Gen.KernelIdeal.Skeleton
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals of the body -/

/-- The first conditional of the body: the tile index is zero. -/
abbrev cond0 (i : grid0.Coords) : Prop := (Scalar.cmpi .ne (Scalar.extui (Scalar.cmpi .eq (BitVec.ofNat 32 (i 1).val) 0#32)) 0#32) = 1#1
/-- It holds at the points whose number is a multiple of sixteen. -/
theorem hcond0 : ∀ t : Fin cfg0.N, cond0 (grid0.coords t) ↔ t.val % 16 = 0 :=
  (by decide +kernel : ∀ t : Fin grid0.N, cond0 (grid0.coords t) ↔ t.val % 16 = 0)
/-- The second conditional of the body: the tile index is fifteen. -/
abbrev cond1 (i : grid0.Coords) : Prop := k0_cond2 i = 1#1
/-- It holds at the points whose number is fifteen modulo sixteen. -/
theorem hcond1 : ∀ t : Fin cfg0.N, cond1 (grid0.coords t) ↔ t.val % 16 = 15 :=
  (by decide +kernel : ∀ t : Fin grid0.N, cond1 (grid0.coords t) ↔ t.val % 16 = 15)

/-! ## The body in each of its three cases

In every case the strip buffer `arg6` is handed over at contents `fs0` and comes back with the point's tile
written into it; the two running totals `arg7`, `arg8` come back with their pieces written; the output buffer
`arg5` is untouched unless the tile is the last one, when it is stored whole. -/

set_option maxHeartbeats 1000000 in
/-- First tile of a strip: the totals are zeroed, then the tile is added and stashed. -/
noncomputable def runA (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S1x128 .f32) (harg8 : arg8.IsWhole) (hc0 : cond0 i) (hc1 : ¬cond1 i)
    (x0 : Vec F S512x128 .f32) (x1 : Vec F S1x128 .f32) (x2 : Vec F S1x128 .f32) (d3 : Vec F S8192x128 .f32)
    (ds0 : Vec F S8192x128 .f32) :
    Σ' (LS0 : List (View.Piece (Elt F) S8192x128 .f32)) (LS1 : List (View.Piece (Elt F) S1x128 .f32)), { LS2 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare ds0 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare (arg6.view.read (Elt F) (arg6.view.writes (Elt F) (harg6.unread ds0) LS0)) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__bn_stream_kernel i arg2 harg2 arg3 harg3 arg4 harg4 arg5 harg5 arg6 harg6 arg7 harg7 arg8 harg8) K } := by
  refine ⟨?_, ?_, ?_, fun E K => ?run⟩
  case run =>
    simp only [cc0__bn_stream_kernel_eq_skeleton]; unfold cc0__bn_stream_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact hf3
      iexact H3
    isplitl [HS0]
    · iexists _; isplitr; swap; · iexact HS0
      ipureintro; rfl
    isplitl [HS1]; · iexists _; iexact HS1
    iexists _; iexact HS2

set_option maxHeartbeats 1000000 in
/-- A middle tile: the tile is added to the totals and stashed. -/
noncomputable def runB (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S1x128 .f32) (harg8 : arg8.IsWhole) (hc0 : ¬cond0 i) (hc1 : ¬cond1 i)
    (x0 : Vec F S512x128 .f32) (x1 : Vec F S1x128 .f32) (x2 : Vec F S1x128 .f32) (d3 : Vec F S8192x128 .f32) (xs1 : Vec F S1x128 .f32) (xs2 : Vec F S1x128 .f32)
    (ds0 : Vec F S8192x128 .f32) :
    Σ' (LS0 : List (View.Piece (Elt F) S8192x128 .f32)) (LS1 : List (View.Piece (Elt F) S1x128 .f32)), { LS2 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare ds0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare (arg6.view.read (Elt F) (arg6.view.writes (Elt F) (harg6.unread ds0) LS0)) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__bn_stream_kernel i arg2 harg2 arg3 harg3 arg4 harg4 arg5 harg5 arg6 harg6 arg7 harg7 arg8 harg8) K } := by
  refine ⟨?_, ?_, ?_, fun E K => ?run⟩
  case run =>
    simp only [cc0__bn_stream_kernel_eq_skeleton]; unfold cc0__bn_stream_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact hf3
      iexact H3
    isplitl [HS0]
    · iexists _; isplitr; swap; · iexact HS0
      ipureintro; rfl
    isplitl [HS1]; · iexists _; iexact HS1
    iexists _; iexact HS2

set_option maxHeartbeats 1000000 in
/-- The last tile of a strip: the tile is added and stashed, then the whole strip is normalised into the output buffer. -/
noncomputable def runC (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S1x128 .f32) (harg8 : arg8.IsWhole) (hc0 : ¬cond0 i) (hc1 : cond1 i)
    (x0 : Vec F S512x128 .f32) (x1 : Vec F S1x128 .f32) (x2 : Vec F S1x128 .f32) (xs1 : Vec F S1x128 .f32) (xs2 : Vec F S1x128 .f32)
    (ds0 : Vec F S8192x128 .f32) :
    Σ' (LO : List (View.Piece (Elt F) S8192x128 .f32)) (LS0 : List (View.Piece (Elt F) S8192x128 .f32)) (LS1 : List (View.Piece (Elt F) S1x128 .f32)), { LS2 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare ds0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ owns (c : Thread nD τ) arg6 fullShare (arg6.view.read (Elt F) (arg6.view.writes (Elt F) (harg6.unread ds0) LS0)) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__bn_stream_kernel i arg2 harg2 arg3 harg3 arg4 harg4 arg5 harg5 arg6 harg6 arg7 harg7 arg8 harg8) K } := by
  refine ⟨?_, ?_, ?_, ?_, fun E K => ?run⟩
  case run =>
    simp only [cc0__bn_stream_kernel_eq_skeleton]; unfold cc0__bn_stream_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _; isplitr; swap; · iexact HS0
      ipureintro; rfl
    isplitl [HS1]; · iexists _; iexact HS1
    iexists _; iexact HS2

end Cert.KernelIdeal.Hand

end
-- ==== Proof.KI.Pieces.lean ====
import proofs.«101858_g2000105174111989_pallasbulk_1044_5_alg».proof.Proof.KI.Cases
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-! ## What each case's stores leave, read back as values

The strip buffer receives one piece: the point's tile at the tile's rows.  Each running total is stored whole, its
new value the tile's column sums added to the old value (zero at the first tile).  At the last tile the output
buffer is stored whole with the normalised strip. -/

theorem hz : (![0, 0] : Fin 2 → Nat) = fun _ => 0 := funext fun a => by fin_cases a <;> rfl

/-! ### First tile -/

theorem A_S0 (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S1x128 .f32) (harg8 : arg8.IsWhole) (hc0 : cond0 i) (hc1 : ¬cond1 i)
    (x0 : Vec F S512x128 .f32) (x1 : Vec F S1x128 .f32) (x2 : Vec F S1x128 .f32) (d3 : Vec F S8192x128 .f32)
    (ds0 : Vec F S8192x128 .f32) :
    (runA c i arg2 harg2 arg3 harg3 arg4 harg4 arg5 harg5 arg6 harg6 arg7 harg7 arg8 harg8 hc0 hc1 x0 x1 x2 d3 ds0).1 = [(⟨Rect.unit (s := S8192x128) (k0_off1 i) S512x128.size (k0_off1_inb i), k0_pay5 x0⟩ : View.Piece (Elt F) S8192x128 .f32)] := by
  unfold runA
  dsimp only
  sl_unfold_words
  simp only [View.readAt_eq_ld, harg2.read_unread, harg3.read_unread, harg4.read_unread, harg7.read_unread, harg8.read_unread, View.ld_unit_zero (S := S512x128) hz, View.ld_unit_zero (S := S1x128) hz, View.ld_unit_zero (S := S8192x128) hz]

theorem A_S1 (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S1x128 .f32) (harg8 : arg8.IsWhole) (hc0 : cond0 i) (hc1 : ¬cond1 i)
    (x0 : Vec F S512x128 .f32) (x1 : Vec F S1x128 .f32) (x2 : Vec F S1x128 .f32) (d3 : Vec F S8192x128 .f32)
    (ds0 : Vec F S8192x128 .f32) (f : arg7.view.ty.Contents (Elt F)) :
    arg7.view.read (Elt F) (arg7.view.writes (Elt F) f (runA c i arg2 harg2 arg3 harg3 arg4 harg4 arg5 harg5 arg6 harg6 arg7 harg7 arg8 harg8 hc0 hc1 x0 x1 x2 d3 ds0).2.1) = k0_pay3 x0 (k0_pay1 (F := F)) := by
  rw [View.read_writes_eq_canon _ _ _ (View.cover_of_tiledL _ S1x128.size (by sl_kernel_rfl))]
  unfold runA
  dsimp only
  sl_unfold_words
  rw [View.canon_cons_unit_zero (S := S1x128) hz, View.readCov_unit_zero (S := S1x128) _ hz]
  simp only [View.readAt_eq_ld, harg2.read_unread, harg3.read_unread, harg4.read_unread, harg7.read_unread, harg8.read_unread, View.ld_unit_zero (S := S512x128) hz, View.ld_unit_zero (S := S1x128) hz, View.ld_unit_zero (S := S8192x128) hz]

theorem A_S2 (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S1x128 .f32) (harg8 : arg8.IsWhole) (hc0 : cond0 i) (hc1 : ¬cond1 i)
    (x0 : Vec F S512x128 .f32) (x1 : Vec F S1x128 .f32) (x2 : Vec F S1x128 .f32) (d3 : Vec F S8192x128 .f32)
    (ds0 : Vec F S8192x128 .f32) (f : arg8.view.ty.Contents (Elt F)) :
    arg8.view.read (Elt F) (arg8.view.writes (Elt F) f (runA c i arg2 harg2 arg3 harg3 arg4 harg4 arg5 harg5 arg6 harg6 arg7 harg7 arg8 harg8 hc0 hc1 x0 x1 x2 d3 ds0).2.2.1) = k0_pay4 x0 (k0_pay2 (F := F)) := by
  rw [View.read_writes_eq_canon _ _ _ (View.cover_of_tiledL _ S1x128.size (by sl_kernel_rfl))]
  unfold runA
  dsimp only
  sl_unfold_words
  rw [View.canon_cons_unit_zero (S := S1x128) hz, View.readCov_unit_zero (S := S1x128) _ hz]
  simp only [View.readAt_eq_ld, harg2.read_unread, harg3.read_unread, harg4.read_unread, harg7.read_unread, harg8.read_unread, View.ld_unit_zero (S := S512x128) hz, View.ld_unit_zero (S := S1x128) hz, View.ld_unit_zero (S := S8192x128) hz]

/-! ### A middle tile -/

theorem B_S0 (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S1x128 .f32) (harg8 : arg8.IsWhole) (hc0 : ¬cond0 i) (hc1 : ¬cond1 i)
    (x0 : Vec F S512x128 .f32) (x1 : Vec F S1x128 .f32) (x2 : Vec F S1x128 .f32) (d3 : Vec F S8192x128 .f32) (xs1 : Vec F S1x128 .f32) (xs2 : Vec F S1x128 .f32)
    (ds0 : Vec F S8192x128 .f32) :
    (runB c i arg2 harg2 arg3 harg3 arg4 harg4 arg5 harg5 arg6 harg6 arg7 harg7 arg8 harg8 hc0 hc1 x0 x1 x2 d3 xs1 xs2 ds0).1 = [(⟨Rect.unit (s := S8192x128) (k0_off1 i) S512x128.size (k0_off1_inb i), k0_pay5 x0⟩ : View.Piece (Elt F) S8192x128 .f32)] := by
  unfold runB
  dsimp only
  sl_unfold_words
  simp only [View.readAt_eq_ld, harg2.read_unread, harg3.read_unread, harg4.read_unread, harg7.read_unread, harg8.read_unread, View.ld_unit_zero (S := S512x128) hz, View.ld_unit_zero (S := S1x128) hz, View.ld_unit_zero (S := S8192x128) hz]

theorem B_S1 (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S1x128 .f32) (harg8 : arg8.IsWhole) (hc0 : ¬cond0 i) (hc1 : ¬cond1 i)
    (x0 : Vec F S512x128 .f32) (x1 : Vec F S1x128 .f32) (x2 : Vec F S1x128 .f32) (d3 : Vec F S8192x128 .f32) (xs1 : Vec F S1x128 .f32) (xs2 : Vec F S1x128 .f32)
    (ds0 : Vec F S8192x128 .f32) (f : arg7.view.ty.Contents (Elt F)) :
    arg7.view.read (Elt F) (arg7.view.writes (Elt F) f (runB c i arg2 harg2 arg3 harg3 arg4 harg4 arg5 harg5 arg6 harg6 arg7 harg7 arg8 harg8 hc0 hc1 x0 x1 x2 d3 xs1 xs2 ds0).2.1) = k0_pay3 x0 xs1 := by
  rw [View.read_writes_eq_canon _ _ _ (View.cover_of_tiledL _ S1x128.size (by sl_kernel_rfl))]
  unfold runB
  dsimp only
  sl_unfold_words
  rw [View.canon_unit_zero hz]
  simp only [View.readAt_eq_ld, harg2.read_unread, harg3.read_unread, harg4.read_unread, harg7.read_unread, harg8.read_unread, View.ld_unit_zero (S := S512x128) hz, View.ld_unit_zero (S := S1x128) hz, View.ld_unit_zero (S := S8192x128) hz]

theorem B_S2 (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S1x128 .f32) (harg8 : arg8.IsWhole) (hc0 : ¬cond0 i) (hc1 : ¬cond1 i)
    (x0 : Vec F S512x128 .f32) (x1 : Vec F S1x128 .f32) (x2 : Vec F S1x128 .f32) (d3 : Vec F S8192x128 .f32) (xs1 : Vec F S1x128 .f32) (xs2 : Vec F S1x128 .f32)
    (ds0 : Vec F S8192x128 .f32) (f : arg8.view.ty.Contents (Elt F)) :
    arg8.view.read (Elt F) (arg8.view.writes (Elt F) f (runB c i arg2 harg2 arg3 harg3 arg4 harg4 arg5 harg5 arg6 harg6 arg7 harg7 arg8 harg8 hc0 hc1 x0 x1 x2 d3 xs1 xs2 ds0).2.2.1) = k0_pay4 x0 xs2 := by
  rw [View.read_writes_eq_canon _ _ _ (View.cover_of_tiledL _ S1x128.size (by sl_kernel_rfl))]
  unfold runB
  dsimp only
  sl_unfold_words
  rw [View.canon_unit_zero hz]
  simp only [View.readAt_eq_ld, harg2.read_unread, harg3.read_unread, harg4.read_unread, harg7.read_unread, harg8.read_unread, View.ld_unit_zero (S := S512x128) hz, View.ld_unit_zero (S := S1x128) hz, View.ld_unit_zero (S := S8192x128) hz]

/-! ### The last tile -/

theorem C_S0 (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S1x128 .f32) (harg8 : arg8.IsWhole) (hc0 : ¬cond0 i) (hc1 : cond1 i)
    (x0 : Vec F S512x128 .f32) (x1 : Vec F S1x128 .f32) (x2 : Vec F S1x128 .f32) (xs1 : Vec F S1x128 .f32) (xs2 : Vec F S1x128 .f32)
    (ds0 : Vec F S8192x128 .f32) :
    (runC c i arg2 harg2 arg3 harg3 arg4 harg4 arg5 harg5 arg6 harg6 arg7 harg7 arg8 harg8 hc0 hc1 x0 x1 x2 xs1 xs2 ds0).2.1 = [(⟨Rect.unit (s := S8192x128) (k0_off1 i) S512x128.size (k0_off1_inb i), k0_pay5 x0⟩ : View.Piece (Elt F) S8192x128 .f32)] := by
  unfold runC
  dsimp only
  sl_unfold_words
  simp only [View.readAt_eq_ld, harg2.read_unread, harg3.read_unread, harg4.read_unread, harg7.read_unread, harg8.read_unread, View.ld_unit_zero (S := S512x128) hz, View.ld_unit_zero (S := S1x128) hz, View.ld_unit_zero (S := S8192x128) hz]

theorem C_S1 (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S1x128 .f32) (harg8 : arg8.IsWhole) (hc0 : ¬cond0 i) (hc1 : cond1 i)
    (x0 : Vec F S512x128 .f32) (x1 : Vec F S1x128 .f32) (x2 : Vec F S1x128 .f32) (xs1 : Vec F S1x128 .f32) (xs2 : Vec F S1x128 .f32)
    (ds0 : Vec F S8192x128 .f32) (f : arg7.view.ty.Contents (Elt F)) :
    arg7.view.read (Elt F) (arg7.view.writes (Elt F) f (runC c i arg2 harg2 arg3 harg3 arg4 harg4 arg5 harg5 arg6 harg6 arg7 harg7 arg8 harg8 hc0 hc1 x0 x1 x2 xs1 xs2 ds0).2.2.1) = k0_pay3 x0 xs1 := by
  rw [View.read_writes_eq_canon _ _ _ (View.cover_of_tiledL _ S1x128.size (by sl_kernel_rfl))]
  unfold runC
  dsimp only
  sl_unfold_words
  rw [View.canon_unit_zero hz]
  simp only [View.readAt_eq_ld, harg2.read_unread, harg3.read_unread, harg4.read_unread, harg7.read_unread, harg8.read_unread, View.ld_unit_zero (S := S512x128) hz, View.ld_unit_zero (S := S1x128) hz, View.ld_unit_zero (S := S8192x128) hz]

theorem C_S2 (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S1x128 .f32) (harg8 : arg8.IsWhole) (hc0 : ¬cond0 i) (hc1 : cond1 i)
    (x0 : Vec F S512x128 .f32) (x1 : Vec F S1x128 .f32) (x2 : Vec F S1x128 .f32) (xs1 : Vec F S1x128 .f32) (xs2 : Vec F S1x128 .f32)
    (ds0 : Vec F S8192x128 .f32) (f : arg8.view.ty.Contents (Elt F)) :
    arg8.view.read (Elt F) (arg8.view.writes (Elt F) f (runC c i arg2 harg2 arg3 harg3 arg4 harg4 arg5 harg5 arg6 harg6 arg7 harg7 arg8 harg8 hc0 hc1 x0 x1 x2 xs1 xs2 ds0).2.2.2.1) = k0_pay4 x0 xs2 := by
  rw [View.read_writes_eq_canon _ _ _ (View.cover_of_tiledL _ S1x128.size (by sl_kernel_rfl))]
  unfold runC
  dsimp only
  sl_unfold_words
  rw [View.canon_unit_zero hz]
  simp only [View.readAt_eq_ld, harg2.read_unread, harg3.read_unread, harg4.read_unread, harg7.read_unread, harg8.read_unread, View.ld_unit_zero (S := S512x128) hz, View.ld_unit_zero (S := S1x128) hz, View.ld_unit_zero (S := S8192x128) hz]

/-- The output buffer after the last tile: the normalisation of what the strip buffer then holds, by the two
    totals as just updated and the gain and offset blocks. -/
theorem C_O (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S1x128 .f32) (harg8 : arg8.IsWhole) (hc0 : ¬cond0 i) (hc1 : cond1 i)
    (x0 : Vec F S512x128 .f32) (x1 : Vec F S1x128 .f32) (x2 : Vec F S1x128 .f32) (xs1 : Vec F S1x128 .f32) (xs2 : Vec F S1x128 .f32)
    (ds0 : Vec F S8192x128 .f32) (f : arg5.view.ty.Contents (Elt F)) :
    arg5.view.read (Elt F) (arg5.view.writes (Elt F) f (runC c i arg2 harg2 arg3 harg3 arg4 harg4 arg5 harg5 arg6 harg6 arg7 harg7 arg8 harg8 hc0 hc1 x0 x1 x2 xs1 xs2 ds0).1)
      = k0_pay6 (k0_pay3 x0 xs1) (k0_pay4 x0 xs2) x1 (arg6.view.read (Elt F) (arg6.view.writes (Elt F) (harg6.unread ds0) [(⟨Rect.unit (s := S8192x128) (k0_off1 i) S512x128.size (k0_off1_inb i), k0_pay5 x0⟩ : View.Piece (Elt F) S8192x128 .f32)])) x2 := by
  rw [View.read_writes_eq_canon _ _ _ (View.cover_of_tiledL _ S8192x128.size (by sl_kernel_rfl))]
  unfold runC
  dsimp only
  sl_unfold_words
  rw [View.canon_unit_zero hz]
  simp only [View.readAt_eq_ld, harg2.read_unread, harg3.read_unread, harg4.read_unread, harg7.read_unread, harg8.read_unread, View.ld_unit_zero (S := S512x128) hz, View.ld_unit_zero (S := S1x128) hz, View.ld_unit_zero (S := S8192x128) hz, View.readCov_unit_zero (S := S1x128) _ hz]

end Cert.KernelIdeal.Hand

end
-- ==== Proof.KI.Data.lean ====
import proofs.«101858_g2000105174111989_pallasbulk_1044_5_alg».proof.Proof.KI.Pieces
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid: point `t` is tile `t % 16` of strip `t / 16` -/

theorem N128 : cfg0.N = 128 := N_0

/-- The tile's rows start at row `512 · (t % 16)` of the strip buffer. -/
theorem off_eq : ∀ t : Fin cfg0.N, k0_off1 (grid0.coords t) = ![512 * (t.val % 16), 0] :=
  (by decide +kernel : ∀ t : Fin grid0.N, k0_off1 (grid0.coords t) = ![512 * (t.val % 16), 0])

/-- The inputs' windows are never idle; the output's is idle except at a strip's last tile, where it is written back. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3_iff : ∀ t : Fin cfg0.N, cfg0.idle 3 (grid0.coords t) = true ↔ ¬t.val % 16 = 15 :=
  (by decide +kernel : ∀ t : Fin grid0.N, cfg0.idle 3 (grid0.coords t) = true ↔ ¬t.val % 16 = 15)

/-- The current staging memrefs at a point and the three scratch buffers. -/
abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8192x128 .f32 := win0_3.stage (cfg0.slots t 3)
abbrev hs3 (t : Fin cfg0.N) : (ms3 t).IsWhole := hstage0_3 ((cfg0.slots t 3).cast nbuf0_3)
abbrev scX : Memref sig .tc .vmem S8192x128 .f32 := Memref.whole cc0_scratch0
abbrev scS : Memref sig .tc .vmem S1x128 .f32 := Memref.whole cc0_scratch1
abbrev scQ : Memref sig .tc .vmem S1x128 .f32 := Memref.whole cc0_scratch2
theorem hscX : (scX : Memref sig .tc .vmem S8192x128 .f32).IsWhole := Memref.isWhole_whole _
theorem hscS : (scS : Memref sig .tc .vmem S1x128 .f32).IsWhole := Memref.isWhole_whole _
theorem hscQ : (scQ : Memref sig .tc .vmem S1x128 .f32).IsWhole := Memref.isWhole_whole _

/-- The class invariant with the scratch buffers as memrefs owned at some contents. -/
theorem PhiA_eq (c : Dev nD) :
    (Pipeline.ΦA spec0 c : sProp 𝕄)
      = iprop(iprop((∃ d, owns (c : Thread nD τ) scX fullShare d) ∗ (∃ d, owns (c : Thread nD τ) scS fullShare d) ∗ (∃ d, owns (c : Thread nD τ) scQ fullShare d)) ∗ (∃ r, prngReg c r)) := by
  unfold Pipeline.ΦA; rw [scopedRest0_eq]; simp only [scX, scS, scQ, owns_whole]; try rfl

/-! ## What the scratch buffers hold after each point -/

/-- The input tile of point `t`, as a 512 × 128 block. -/
abbrev tile (c : Dev nD) (t : Fin cfg0.N) : Vec F S512x128 .f32 := iblk m c 0 t

/-- The two running totals after point `n`: restarted from zero at a strip's first tile, else the point before's
    plus this tile's column sums (of the entries, of their squares). -/
def totals (c : Dev nD) : (n : ℕ) → n < cfg0.N → Vec F S1x128 .f32 × Vec F S1x128 .f32
  | 0, h => (k0_pay3 (tile m c ⟨0, h⟩) (k0_pay1 (F := F)), k0_pay4 (tile m c ⟨0, h⟩) (k0_pay2 (F := F)))
  | n + 1, h =>
    if (n + 1) % 16 = 0 then (k0_pay3 (tile m c ⟨n + 1, h⟩) (k0_pay1 (F := F)), k0_pay4 (tile m c ⟨n + 1, h⟩) (k0_pay2 (F := F)))
    else (k0_pay3 (tile m c ⟨n + 1, h⟩) (totals c n (Nat.lt_of_succ_lt h)).1, k0_pay4 (tile m c ⟨n + 1, h⟩) (totals c n (Nat.lt_of_succ_lt h)).2)

theorem totals_first (c : Dev nD) (t : Fin cfg0.N) (h0 : t.val % 16 = 0) :
    totals m c t.val t.isLt = (k0_pay3 (tile m c t) (k0_pay1 (F := F)), k0_pay4 (tile m c t) (k0_pay2 (F := F))) := by
  obtain ⟨n, hn⟩ := t
  cases n with
  | zero => rfl
  | succ n => exact (if_pos h0).trans rfl

theorem totals_next (c : Dev nD) (t : Fin cfg0.N) (h0 : ¬t.val % 16 = 0) :
    totals m c t.val t.isLt = (k0_pay3 (tile m c t) (totals m c (t.val - 1) (Nat.lt_of_le_of_lt (Nat.sub_le _ _) t.isLt)).1,
      k0_pay4 (tile m c t) (totals m c (t.val - 1) (Nat.lt_of_le_of_lt (Nat.sub_le _ _) t.isLt)).2) := by
  obtain ⟨n, hn⟩ := t
  cases n with
  | zero => exact absurd (Nat.zero_mod _) h0
  | succ n => exact (if_neg h0).trans rfl

/-- The strip buffer after point `t`: tiles `0 … t % 16` of the strip are in place, tile `i'` at rows `512 · i' …`. -/
def StripInv (c : Dev nD) (t : Fin cfg0.N) (d : Vec F S8192x128 .f32) : Prop :=
  ∀ (i' : ℕ) (hi : i' ≤ t.val % 16) (r : Fin 512) (l : Fin 128),
    d (ix2 (⟨512 * i' + r.val, by have := Nat.mod_lt t.val (show 0 < 16 by norm_num); omega⟩ : Fin 8192) l)
      = tile m c ⟨16 * (t.val / 16) + i', by have := t.isLt; have := N128; have := Nat.mod_lt t.val (show 0 < 16 by norm_num); omega⟩ (ix2 r l)

/-- The whole strip `t / 16` of the input, as an 8192 × 128 block: row `ρ` is row `ρ % 512` of tile `ρ / 512`. -/
def stripOf (c : Dev nD) (t : Fin cfg0.N) : Vec F S8192x128 .f32 := fun y =>
  tile m c ⟨16 * (t.val / 16) + (y 0).val / 512, by have := t.isLt; have := N128; have := idx2_lt0 y; omega⟩
    (ix2 (⟨(y 0).val % 512, Nat.mod_lt _ (by norm_num)⟩ : Fin 512) (⟨(y 1).val, idx2_lt1 y⟩ : Fin 128))

/-! ## The region invariant and the proof data -/

/-- The region invariant before position `n`: at the start the class's (every scratch at anything); afterwards the
    strip buffer at SOME contents with the strip's tiles so far in place, the two totals at their values after the
    point before, and the generator register at some state. -/
def PhiS (c : Dev nD) : (n : ℕ) → n ≤ cfg0.N → sProp 𝕄
  | 0, _ => Pipeline.ΦA spec0 c
  | n + 1, hn => iprop(iprop((∃ d, ⌜StripInv m c ⟨n, hn⟩ d⌝ ∗ owns (c : Thread nD τ) scX fullShare d) ∗ owns (c : Thread nD τ) scS fullShare ((totals m c n hn).1) ∗ owns (c : Thread nD τ) scQ fullShare ((totals m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, ⌜StripInv m c ⟨n, hn⟩ d⌝ ∗ owns (c : Thread nD τ) scX fullShare d) ∗ owns (c : Thread nD τ) scS fullShare ((totals m c n hn).1) ∗ owns (c : Thread nD τ) scQ fullShare ((totals m c n hn).2)) ∗ (∃ r, prngReg c r)) := rfl

theorem PhiS_pos (c : Dev nD) (n : ℕ) (h : n ≤ cfg0.N) (hz : n ≠ 0) :
    PhiS m c n h = iprop(iprop((∃ d, ⌜StripInv m c ⟨n - 1, by omega⟩ d⌝ ∗ owns (c : Thread nD τ) scX fullShare d) ∗ owns (c : Thread nD τ) scS fullShare ((totals m c (n - 1) (by omega)).1) ∗ owns (c : Thread nD τ) scQ fullShare ((totals m c (n - 1) (by omega)).2)) ∗ (∃ r, prngReg c r)) := by
  cases n with
  | zero => exact absurd rfl hz
  | succ n => rfl

/-- What the output buffer is stored with at a strip's last tile: the strip normalised by its two totals, the gain
    block and the offset block. (Stated at every point; only the last tile of a strip writes it back.) -/
def outBlock (c : Dev nD) (t : Fin cfg0.N) : Vec F S8192x128 .f32 :=
  k0_pay6 (totals m c t.val t.isLt).1 (totals m c t.val t.isLt).2 (iblk m c 1 t) (stripOf m c t) (iblk m c 2 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outBlock m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

end Cert.KernelIdeal.Hand

end
-- ==== Proof.KI.Body.lean ====
import proofs.«101858_g2000105174111989_pallasbulk_1044_5_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Storing a tile into the strip buffer

Rows `o … o + 511` take the tile; every other row keeps what the buffer held. -/

section StripWrite

variable (M : Memref sig .tc .vmem S8192x128 .f32) (hM : M.IsWhole) (ds0 : Vec F S8192x128 .f32) (x0 : Vec F S512x128 .f32)
  (off : Fin 2 → ℕ) (inb : ∀ a, off a + S512x128.size a ≤ S8192x128.size a) (o : ℕ) (hoff : off = ![o, 0])

include hoff in
theorem strip_hit (q : Fin 8192) (r : Fin 512) (l : Fin 128) (hq : q.val = o + r.val) :
    M.view.read (Elt F) (M.view.writes (Elt F) (hM.unread ds0) [(⟨Rect.unit (s := S8192x128) off S512x128.size inb, k0_pay5 x0⟩ : View.Piece (Elt F) S8192x128 .f32)]) (ix2 q l)
      = x0 (ix2 r l) :=
  (View.read_writes_cons_rows_of_mem M.view (hM.unread ds0) inb (k0_pay5 x0) [] (ix2 q l) (ix2 r l) hoff hq rfl).trans
    (congrFun (shapeCast_self x0 _) (ix2 r l))

include hoff in
theorem strip_miss (q : Fin 8192) (l : Fin 128) (hq : q.val < o ∨ o + 512 ≤ q.val) :
    M.view.read (Elt F) (M.view.writes (Elt F) (hM.unread ds0) [(⟨Rect.unit (s := S8192x128) off S512x128.size inb, k0_pay5 x0⟩ : View.Piece (Elt F) S8192x128 .f32)]) (ix2 q l)
      = ds0 (ix2 q l) :=
  (View.read_writes_cons_rows_of_not_mem M.view (hM.unread ds0) inb (k0_pay5 x0) [] (ix2 q l) hoff rfl hq).trans
    (by rw [View.writes_nil, hM.read_unread])

end StripWrite

/-- The tile of a point, named by any equal point number. -/
theorem tile_congr (c : Dev nD) (t t' : Fin cfg0.N) (h : t'.val = t.val) (r : Fin 512) (l : Fin 128) :
    tile m c t' (ix2 r l) = tile m c t (ix2 r l) := by
  obtain rfl : t' = t := Fin.ext h
  rfl

/-- After a strip's first tile is stored, tile 0 is in place. -/
theorem strip_first (c : Dev nD) (t : Fin cfg0.N) (h0 : t.val % 16 = 0) (M : Memref sig .tc .vmem S8192x128 .f32) (hM : M.IsWhole)
    (ds0 : Vec F S8192x128 .f32) :
    StripInv m c t (M.view.read (Elt F) (M.view.writes (Elt F) (hM.unread ds0)
      [(⟨Rect.unit (s := S8192x128) (k0_off1 (grid0.coords t)) S512x128.size (k0_off1_inb (grid0.coords t)), k0_pay5 (tile m c t)⟩ : View.Piece (Elt F) S8192x128 .f32)])) := by
  intro i' hi r l
  have hN : t.val < 128 := lt_of_lt_of_eq t.isLt N128
  have hi0 : i' = 0 := by omega
  subst hi0
  refine (strip_hit M hM ds0 (tile m c t) _ _ (512 * (t.val % 16)) (off_eq t) _ r l (by dsimp only; omega)).trans ?_
  exact (tile_congr m c t _ (by dsimp only; omega) r l).symm

/-- After a later tile is stored, the tiles up to it are in place, given those before it were. -/
theorem strip_next (c : Dev nD) (t : Fin cfg0.N) (h0 : ¬t.val % 16 = 0) (M : Memref sig .tc .vmem S8192x128 .f32) (hM : M.IsWhole)
    (ds0 : Vec F S8192x128 .f32) (hd : StripInv m c ⟨t.val - 1, Nat.lt_of_le_of_lt (Nat.sub_le _ _) t.isLt⟩ ds0) :
    StripInv m c t (M.view.read (Elt F) (M.view.writes (Elt F) (hM.unread ds0)
      [(⟨Rect.unit (s := S8192x128) (k0_off1 (grid0.coords t)) S512x128.size (k0_off1_inb (grid0.coords t)), k0_pay5 (tile m c t)⟩ : View.Piece (Elt F) S8192x128 .f32)])) := by
  intro i' hi r l
  have hN : t.val < 128 := lt_of_lt_of_eq t.isLt N128
  by_cases hlast : i' = t.val % 16
  · subst hlast
    refine (strip_hit M hM ds0 (tile m c t) _ _ (512 * (t.val % 16)) (off_eq t) _ r l (by dsimp only)).trans ?_
    exact (tile_congr m c t _ (by dsimp only; omega) r l).symm
  · refine (strip_miss M hM ds0 (tile m c t) _ _ (512 * (t.val % 16)) (off_eq t) _ l (by dsimp only; omega)).trans ?_
    have h := hd i' (by dsimp only; omega) r l
    refine h.trans ?_
    exact tile_congr m c _ _ (by dsimp only; omega) r l

/-- Once the last tile is stored the buffer holds the whole strip. -/
theorem strip_full (c : Dev nD) (t : Fin cfg0.N) (h1 : t.val % 16 = 15) (d : Vec F S8192x128 .f32) (hd : StripInv m c t d) :
    d = stripOf m c t := by
  funext y
  have hy0 : (y 0).val < 8192 := idx2_lt0 y
  have hy1 : (y 1).val < 128 := idx2_lt1 y
  have e : y = ix2 (⟨512 * ((y 0).val / 512) + (⟨(y 0).val % 512, Nat.mod_lt _ (by norm_num)⟩ : Fin 512).val, by dsimp only; omega⟩ : Fin 8192) (⟨(y 1).val, hy1⟩ : Fin 128) := by
    funext a; match a with
    | ⟨0, _⟩ => exact Fin.ext (show (y 0).val = 512 * ((y 0).val / 512) + (y 0).val % 512 by omega)
    | ⟨1, _⟩ => rfl
  have h := hd ((y 0).val / 512) (by omega) ⟨(y 0).val % 512, Nat.mod_lt _ (by norm_num)⟩ ⟨(y 1).val, hy1⟩
  rw [← e] at h
  exact h

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1000000 in
/-- The body at any point: the inputs hold their blocks; the point's case is decided by its number modulo sixteen;
    the invariant hands over the strip buffer and the totals as the point before left them and takes them back as
    this point leaves them; the output buffer is handed back as found except at a strip's last tile, where it is
    stored with the normalised strip. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt N128
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  by_cases h1 : t.val % 16 = 15
  · -- the last tile of a strip
    have h0 : ¬t.val % 16 = 0 := by omega
    have hz : t.val ≠ 0 := by omega
    rw [show (dats m 0 c).leavesExact 3 t = owns (c : Thread nD τ) (ms3 t) fullShare ((dats m 0 c).after 3 t) from by
      unfold Dat.leavesExact; rw [Bool.eq_false_iff.mpr (fun h => (idle3_iff t).mp h h1)], after3]
    unfold outBlock
    rw [totals_next m c t h0]
    rw [PhiS_castSucc m c t, PhiS_pos m c _ _ hz]
    iintro ⟨⟨⟨⟨%ds0, %hds0, HS0⟩, HS1, HS2⟩, Hg⟩, Ho, ⟨%d0, H0⟩, ⟨%d1, H1⟩, ⟨%d2, H2⟩, ⟨%d3, H3⟩⟩
    iapply ((runC c (grid0.coords t) _ _ _ _ _ _ _ _ _ _ _ _ _ _ (fun h => h0 ((hcond0 t).mp h)) ((hcond1 t).mpr h1) (tile m c t) (iblk m c 1 t) (iblk m c 2 t) _ _ ds0).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%eo, H3⟩, HS0, ⟨%es1, HS1⟩, ⟨%es2, HS2⟩⟩
    isplitl [HS0 HS1 HS2 Hg]
    · isplitl [HS0 HS1 HS2]
      · isplitl [HS0]
        · iexists _; isplitr; swap; · iexact HS0
          ipureintro; rw [C_S0]; exact strip_next m c t h0 _ _ ds0 hds0
        isplitl [HS1]
        · unfold owns; iexists _; isplitr; swap; · iexact HS1
          ipureintro; exact C_S1 ..
        unfold owns; iexists _; isplitr; swap; · iexact HS2
        ipureintro; exact C_S2 ..
      iexact Hg
    isplitl [Ho]; · iexact Ho
    isplitl [H0]; · iexact H0
    isplitl [H1]; · iexact H1
    isplitl [H2]; · iexact H2
    unfold owns; iexists _; isplitr; swap; · iexact H3
    ipureintro
    refine (C_O ..).trans ?_
    rw [strip_full m c t h1 _ (strip_next m c t h0 _ _ ds0 hds0)]
  · have hidle : cfg0.idle 3 (grid0.coords t) = true := (idle3_iff t).mpr h1
    have hnf : (cfg0.win 3).flush t = false := Bool.eq_false_iff.mpr (fun h => h1 ((flush0_3 t).mp h))
    rw [Dat.leavesExact_idle _ 3 t hidle hnf]
    by_cases h0 : t.val % 16 = 0
    · -- the first tile of a strip
      rw [totals_first m c t h0]
      by_cases hz : t.val = 0
      · rw [PhiS_castSucc m c t, PhiS_zero m c _ _ hz, PhiA_eq]
        iintro ⟨⟨⟨⟨%ds0, HS0⟩, HS1, HS2⟩, Hg⟩, Ho, ⟨%d0, H0⟩, ⟨%d1, H1⟩, ⟨%d2, H2⟩, ⟨%d3, H3⟩⟩
        iapply ((runA c (grid0.coords t) _ _ _ _ _ _ _ _ _ _ _ _ _ _ ((hcond0 t).mpr h0) (fun h => h1 ((hcond1 t).mp h)) (tile m c t) (iblk m c 1 t) (iblk m c 2 t) _ ds0).2.2.2 Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, ⟨%es1, HS1⟩, ⟨%es2, HS2⟩⟩
        isplitl [HS0 HS1 HS2 Hg]
        · isplitl [HS0 HS1 HS2]
          · isplitl [HS0]
            · iexists _; isplitr; swap; · iexact HS0
              ipureintro; rw [A_S0]; exact strip_first m c t h0 _ _ ds0
            isplitl [HS1]
            · unfold owns; iexists _; isplitr; swap; · iexact HS1
              ipureintro; exact A_S1 ..
            unfold owns; iexists _; isplitr; swap; · iexact HS2
            ipureintro; exact A_S2 ..
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨⟨⟨%ds0, %hds0, HS0⟩, HS1, HS2⟩, Hg⟩, Ho, ⟨%d0, H0⟩, ⟨%d1, H1⟩, ⟨%d2, H2⟩, ⟨%d3, H3⟩⟩
        iapply ((runA c (grid0.coords t) _ _ _ _ _ _ _ _ _ _ _ _ _ _ ((hcond0 t).mpr h0) (fun h => h1 ((hcond1 t).mp h)) (tile m c t) (iblk m c 1 t) (iblk m c 2 t) _ ds0).2.2.2 Set.univ _)
        isplitl [H0]; · iexact H0
        isplitl [H1]; · iexact H1
        isplitl [H2]; · iexact H2
        isplitl [H3]; · iexact H3
        isplitl [HS0]; · iexact HS0
        isplitl [HS1]; · iexists _; iexact HS1
        isplitl [HS2]; · iexists _; iexact HS2
        iintro ⟨H0, H1, H2, H3, HS0, ⟨%es1, HS1⟩, ⟨%es2, HS2⟩⟩
        isplitl [HS0 HS1 HS2 Hg]
        · isplitl [HS0 HS1 HS2]
          · isplitl [HS0]
            · iexists _; isplitr; swap; · iexact HS0
              ipureintro; rw [A_S0]; exact strip_first m c t h0 _ _ ds0
            isplitl [HS1]
            · unfold owns; iexists _; isplitr; swap; · iexact HS1
              ipureintro; exact A_S1 ..
            unfold owns; iexists _; isplitr; swap; · iexact HS2
            ipureintro; exact A_S2 ..
          iexact Hg
        isplitl [Ho]; · iexact Ho
        isplitl [H0]; · iexact H0
        isplitl [H1]; · iexact H1
        isplitl [H2]; · iexact H2
        iexists _; iexact H3
    · -- a middle tile
      have hz : t.val ≠ 0 := by omega
      rw [totals_next m c t h0]
      rw [PhiS_castSucc m c t, PhiS_pos m c _ _ hz]
      iintro ⟨⟨⟨⟨%ds0, %hds0, HS0⟩, HS1, HS2⟩, Hg⟩, Ho, ⟨%d0, H0⟩, ⟨%d1, H1⟩, ⟨%d2, H2⟩, ⟨%d3, H3⟩⟩
      iapply ((runB c (grid0.coords t) _ _ _ _ _ _ _ _ _ _ _ _ _ _ (fun h => h0 ((hcond0 t).mp h)) (fun h => h1 ((hcond1 t).mp h)) (tile m c t) (iblk m c 1 t) (iblk m c 2 t) _ _ _ ds0).2.2.2 Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, ⟨%es1, HS1⟩, ⟨%es2, HS2⟩⟩
      isplitl [HS0 HS1 HS2 Hg]
      · isplitl [HS0 HS1 HS2]
        · isplitl [HS0]
          · iexists _; isplitr; swap; · iexact HS0
            ipureintro; rw [B_S0]; exact strip_next m c t h0 _ _ ds0 hds0
          isplitl [HS1]
          · unfold owns; iexists _; isplitr; swap; · iexact HS1
            ipureintro; exact B_S1 ..
          unfold owns; iexists _; isplitr; swap; · iexact HS2
          ipureintro; exact B_S2 ..
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N128; omega), PhiA_eq]
  iintro ⟨⟨⟨%d, %hd, HS0⟩, HS1, HS2⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.Spec.lean ====
/-
  Training-mode batch normalisation of one column, on the extended reals.

  A column of 8192 entries is summed tile by tile: sixteen tiles of 512 consecutive rows, each tile's sum added to
  a running total that starts at the first tile's sum.  From the column's total `S` and the total `Q` of its squares:
  the mean `m = S · w` (`w` the word of 1/8192), the clamped variance `v = max (Q · w − m · m) 0`, and the
  scale `1/√(v + ε)` (`ε` the word of 1e-5) times the gain.  The output is written in two ways,
  `(x − m) · (g · r) + b` and `x · (r · g) + (b − m · (r · g))`, which agree when every entry is a real number.
-/
import Idealize.ShloMosaic.PureOps.Ideal
import Idealize.ShloMosaic.PureOps.Ideal.Laws
import Idealize.ShloMosaic.Lib.ValueIdx

noncomputable section

open scoped BigOperators

namespace Cert.BN

open Idealize.ShloMosaic Idealize.ShloMosaic.ValueIdx

/-- Row `r` of tile `i`: row `512 · i + r` of the column. -/
def rowOf (i : Fin 16) (r : Fin 512) : Fin 8192 := ⟨512 * i.val + r.val, by omega⟩

/-- The sum of tile `i` of a column. -/
def tileSum (f : Fin 8192 → EReal) (i : Fin 16) : EReal := ∑ r : Fin 512, f (rowOf i r)

/-- The running total after tiles `0 … n`. -/
def accSum (f : Fin 8192 → EReal) : (n : ℕ) → n < 16 → EReal
  | 0, h => tileSum f ⟨0, h⟩
  | n + 1, h => accSum f n (Nat.lt_of_succ_lt h) + tileSum f ⟨n + 1, h⟩

/-- The column's total, as accumulated over its sixteen tiles. -/
def colSum (f : Fin 8192 → EReal) : EReal := accSum f 15 (by norm_num)

/-- The word of 1/8192. -/
abbrev wInv : EReal := Ideal.ofBits .f32 0x39000000#32
/-- The word of 1e-5. -/
abbrev wEps : EReal := Ideal.ofBits .f32 0x3727C5AC#32

/-- The mean from the totals. -/
def mean (f : Fin 8192 → EReal) : EReal := colSum f * wInv
/-- The clamped variance from the totals. -/
def var (f : Fin 8192 → EReal) : EReal := max (colSum (fun r => f r * f r) * wInv - mean f * mean f) 0
/-- The reciprocal standard deviation. -/
def rstd (f : Fin 8192 → EReal) : EReal := Ideal.rsqrt (var f + wEps)

/-- The centred form: `(x − m) · (g · r) + b`. -/
def centred (f : Fin 8192 → EReal) (g b : EReal) (r : Fin 8192) : EReal :=
  (f r - mean f) * (g * rstd f) + b
/-- The scale-and-shift form: `x · (r · g) + (b − m · (r · g))`. -/
def affine (f : Fin 8192 → EReal) (g b : EReal) (r : Fin 8192) : EReal :=
  f r * (rstd f * g) + (b - mean f * (rstd f * g))

/-- The whole arrays: `x` of 8192 rows by 1024 columns, gain and offset of 1024 entries. -/
abbrev SX : Shape := ⟨2, ![8192, 1024]⟩
abbrev SC : Shape := ⟨1, ![1024]⟩

/-- Column `c` of the array. -/
def column (X : SX.Idx → EReal) (c : Fin 1024) : Fin 8192 → EReal := fun r => X (ix2 r c)

/-- The centred form applied to every column. -/
def centredArr (X : SX.Idx → EReal) (gam bet : SC.Idx → EReal) : SX.Idx → EReal :=
  fun j => centred (column X (j 1)) (gam (ix1 (j 1))) (bet (ix1 (j 1))) (j 0)
/-- The scale-and-shift form applied to every column. -/
def affineArr (X : SX.Idx → EReal) (gam bet : SC.Idx → EReal) : SX.Idx → EReal :=
  fun j => affine (column X (j 1)) (gam (ix1 (j 1))) (bet (ix1 (j 1))) (j 0)

end Cert.BN

end
-- ==== Proof.KI.Blocks.lean ====
/-
  Where each input window's block sits in its array.

  The grid has 128 points; point t works on strip t / 16 (128 columns) and tile t % 16 (512 rows).  The first
  window's block at t is rows 512·(t % 16) … 512·(t % 16) + 511 and columns 128·(t / 16) … 128·(t / 16) + 127 of the
  input array.  The second and third windows read the gain and the offset, each first reshaped from 1024 entries to
  one row of 1024; their block at t is columns 128·(t / 16) … 128·(t / 16) + 127 of that row.
-/
import proofs.«101858_g2000105174111989_pallasbulk_1044_5_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen Idealize.ShloMosaic Idealize.ShloMosaic.ValueIdx Idealize.ShloMosaic.TcCoe
open Idealize.SL Idealize.SL.Sem

variable {F : FTy → Type} [FloatOps F]
variable (m : (ℓ : Loc nD τ sig) → Buf (Elt F) ℓ)

/-- The printed index maps over the grid: the first window's block index is (tile, strip), the second and third
    windows' is (0, strip). -/
theorem idx_facts : ∀ t : Fin cfg0.N,
    win0_0.index t (0 : Fin 2) = t.val % 16 ∧ win0_0.index t (1 : Fin 2) = t.val / 16
    ∧ win0_1.index t (0 : Fin 2) = 0 ∧ win0_1.index t (1 : Fin 2) = t.val / 16
    ∧ win0_2.index t (0 : Fin 2) = 0 ∧ win0_2.index t (1 : Fin 2) = t.val / 16 :=
  (by decide +kernel : ∀ t : Fin grid0.N, _)

/-- The first window's block at point t, read at (r, l), is the input array at row 512·(t % 16) + r and column
    128·(t / 16) + l. -/
theorem iblk0_apply (c : Dev nD) (t : Fin cfg0.N) (r : Fin 512) (l : Fin 128) :
    (iblk m c 0 t : S512x128.Idx → Elt F .f32) (ix2 r l)
      = (m ((c : Thread nD τ).loc main_arg0) : S8192x1024.Idx → Elt F .f32)
          (ix2 ⟨512 * (t.val % 16) + r.val, by have := r.isLt; omega⟩
            ⟨128 * (t.val / 16) + l.val, by have := t.isLt; have hN : cfg0.N = 128 := N_0; have := l.isLt; omega⟩) := by
  obtain ⟨e0, e1, -⟩ := idx_facts t
  show V m c main_arg0 (((cfg0.win 0).blk t).view.emb (ix2 r l)) = _
  rw [V_main_arg0]
  refine congrArg _ ?_
  funext a; apply Fin.ext
  match a with
  | ⟨0, _⟩ => show win0_0.index t (0 : Fin 2) * 512 + 1 * r.val = 512 * (t.val % 16) + r.val; omega
  | ⟨1, _⟩ => show win0_0.index t (1 : Fin 2) * 128 + 1 * l.val = 128 * (t.val / 16) + l.val; omega

/-- The second window's array when the region is entered: the gain of 1024 entries reshaped to one row. -/
theorem V_main_v0 (c : Dev nD) :
    (V m c main_v0 : S1x1024.Idx → Elt F .f32)
      = shapeCast S1x1024 (m ((c : Thread nD τ).loc main_arg1) : S1024.Idx → Elt F .f32) shapeCasts_S1024_S1x1024 := by
  dsimp only [Gen.V, Gen.hostOps0]
  after_results
  rfl

/-- The second window's block at point t, read at (0, l), is the gain at entry 128·(t / 16) + l. -/
theorem iblk1_apply (c : Dev nD) (t : Fin cfg0.N) (l : Fin 128) :
    (iblk m c 1 t : S1x128.Idx → Elt F .f32) (ix2 (0 : Fin 1) l)
      = (m ((c : Thread nD τ).loc main_arg1) : S1024.Idx → Elt F .f32)
          (ix1 ⟨128 * (t.val / 16) + l.val, by have := t.isLt; have hN : cfg0.N = 128 := N_0; have := l.isLt; omega⟩) := by
  have ht : t.val < 128 := by have := t.isLt; have hN : cfg0.N = 128 := N_0; omega
  have hl : 128 * (t.val / 16) + l.val < 1024 := by have := l.isLt; omega
  obtain ⟨-, -, e0, e1, -⟩ := idx_facts t
  show V m c main_v0 (((cfg0.win 1).blk t).view.emb (ix2 (0 : Fin 1) l)) = _
  have hemb : ((cfg0.win 1).blk t).view.emb (ix2 (0 : Fin 1) l)
      = (ix2 (0 : Fin 1) (⟨128 * (t.val / 16) + l.val, hl⟩ : Fin 1024) : S1x1024.Idx) := by
    funext a; apply Fin.ext
    match a with
    | ⟨0, _⟩ => show win0_1.index t (0 : Fin 2) * 1 + 1 * 0 = 0; omega
    | ⟨1, _⟩ => show win0_1.index t (1 : Fin 2) * 128 + 1 * l.val = 128 * (t.val / 16) + l.val; omega
  refine (congrArg (V m c main_v0 : S1x1024.Idx → Elt F .f32) hemb).trans ?_
  rw [V_main_v0]
  exact shapeCast_a_1a_apply _ _ _ _

/-- The third window's array when the region is entered: the offset of 1024 entries reshaped to one row. -/
theorem V_main_v1 (c : Dev nD) :
    (V m c main_v1 : S1x1024.Idx → Elt F .f32)
      = shapeCast S1x1024 (m ((c : Thread nD τ).loc main_arg2) : S1024.Idx → Elt F .f32) shapeCasts_S1024_S1x1024 := by
  dsimp only [Gen.V, Gen.hostOps0]
  after_results
  rfl

/-- The third window's block at point t, read at (0, l), is the offset at entry 128·(t / 16) + l. -/
theorem iblk2_apply (c : Dev nD) (t : Fin cfg0.N) (l : Fin 128) :
    (iblk m c 2 t : S1x128.Idx → Elt F .f32) (ix2 (0 : Fin 1) l)
      = (m ((c : Thread nD τ).loc main_arg2) : S1024.Idx → Elt F .f32)
          (ix1 ⟨128 * (t.val / 16) + l.val, by have := t.isLt; have hN : cfg0.N = 128 := N_0; have := l.isLt; omega⟩) := by
  have ht : t.val < 128 := by have := t.isLt; have hN : cfg0.N = 128 := N_0; omega
  have hl : 128 * (t.val / 16) + l.val < 1024 := by have := l.isLt; omega
  obtain ⟨-, -, -, -, e0, e1⟩ := idx_facts t
  show V m c main_v1 (((cfg0.win 2).blk t).view.emb (ix2 (0 : Fin 1) l)) = _
  have hemb : ((cfg0.win 2).blk t).view.emb (ix2 (0 : Fin 1) l)
      = (ix2 (0 : Fin 1) (⟨128 * (t.val / 16) + l.val, hl⟩ : Fin 1024) : S1x1024.Idx) := by
    funext a; apply Fin.ext
    match a with
    | ⟨0, _⟩ => show win0_2.index t (0 : Fin 2) * 1 + 1 * 0 = 0; omega
    | ⟨1, _⟩ => show win0_2.index t (1 : Fin 2) * 128 + 1 * l.val = 128 * (t.val / 16) + l.val; omega
  refine (congrArg (V m c main_v1 : S1x1024.Idx → Elt F .f32) hemb).trans ?_
  rw [V_main_v1]
  exact shapeCast_a_1a_apply _ _ _ _

end Cert.KernelIdeal.Hand

end
-- ==== Proof.KI.Payloads.lean ====
/-
  What each stored value of the kernel body is, entry by entry, on the extended reals.

  The two accumulators start at zero; at each tile the first gains the tile's column sums and the second the column
  sums of the squares; the tile itself is copied unchanged into the column store; at the last tile the output is
  (x − S·w)·(g·rsqrt(max(Q·w − (S·w)·(S·w), 0) + ε)) + b  with S and Q the two accumulators, w the word of 1/8192 and
  ε the word of 1e-5, the one-row operands repeated down the 8192 rows.
-/
import proofs.«101858_g2000105174111989_pallasbulk_1044_5_alg».proof.Proof.Gen.KernelIdeal.Skeleton
import proofs.«101858_g2000105174111989_pallasbulk_1044_5_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- A sum down the 512 rows of a tile, read at column l. -/
theorem colsum_apply (x : Vec Ideal S512x128 .f32) (l : Fin 128) :
    shapeCast S1x128 (multiReduction (F := Ideal) .add [0] S128 x 0x00000000#32 reduces_S512x128_S128 (.inl rfl) rfl)
        shapeCasts_S128_S1x128 (ix2 (0 : Fin 1) l)
      = ∑ q : Fin 512, x (ix2 q l) := by
  refine (shapeCast_a_1a_apply _ shapeCasts_S128_S1x128 (0 : Fin 1) l).trans ?_
  refine (Ideal.multiReduction_add_single x 0x00000000#32 reduces_S512x128_S128 (.inl rfl) rfl (ix1 l)).trans ?_
  show ∑ q : Fin 512, x (reduces_S512x128_S128.lift (ix1 l) q) = _
  refine Finset.sum_congr rfl fun q _ => congrArg x ?_
  funext a; apply Fin.ext
  match a with
  | ⟨0, _⟩ => rfl
  | ⟨1, _⟩ => rfl

/-- The first accumulator's starting value is zero. -/
theorem pay1_apply (l : Fin 128) : (k0_pay1 (F := Ideal)) (ix2 (0 : Fin 1) l) = 0 := by
  unfold k0_pay1
  rw [shapeCast_self]
  exact Ideal.ofBits_zero_f32

/-- The second accumulator's starting value is zero. -/
theorem pay2_apply (l : Fin 128) : (k0_pay2 (F := Ideal)) (ix2 (0 : Fin 1) l) = 0 := by
  unfold k0_pay2
  rw [shapeCast_self]
  exact Ideal.ofBits_zero_f32

/-- The first accumulator after a tile: what it held plus the tile's column sum. -/
theorem pay3_apply (x0 : Vec Ideal S512x128 .f32) (v4 : Vec Ideal S1x128 .f32) (l : Fin 128) :
    (k0_pay3 (F := Ideal) x0 v4) (ix2 (0 : Fin 1) l) = v4 (ix2 (0 : Fin 1) l) + ∑ q : Fin 512, x0 (ix2 q l) := by
  unfold k0_pay3
  rw [shapeCast_self]
  exact congrArg (v4 (ix2 (0 : Fin 1) l) + ·) (colsum_apply x0 l)

/-- The second accumulator after a tile: what it held plus the column sum of the tile's squares. -/
theorem pay4_apply (x0 : Vec Ideal S512x128 .f32) (v11 : Vec Ideal S1x128 .f32) (l : Fin 128) :
    (k0_pay4 (F := Ideal) x0 v11) (ix2 (0 : Fin 1) l)
      = v11 (ix2 (0 : Fin 1) l) + ∑ q : Fin 512, x0 (ix2 q l) * x0 (ix2 q l) := by
  unfold k0_pay4
  rw [shapeCast_self]
  exact congrArg (v11 (ix2 (0 : Fin 1) l) + ·) (colsum_apply (mulf (F := Ideal) (s := S512x128) (φ := .f32) x0 x0) l)

/-- The tile is stored unchanged. -/
theorem pay5_apply (x0 : Vec Ideal S512x128 .f32) : (k0_pay5 (F := Ideal) x0) = x0 := by
  unfold k0_pay5
  exact shapeCast_self x0 _

/-- The output at the last tile, at row r and column l. -/
theorem pay6_apply (v27 v30 v37 : Vec Ideal S1x128 .f32) (v43 : Vec Ideal S8192x128 .f32) (v48 : Vec Ideal S1x128 .f32)
    (r : Fin 8192) (l : Fin 128) :
    (k0_pay6 (F := Ideal) v27 v30 v37 v43 v48) (ix2 r l)
      = (v43 (ix2 r l) - v27 (ix2 (0 : Fin 1) l) * Cert.BN.wInv)
          * (v37 (ix2 (0 : Fin 1) l)
              * Ideal.rsqrt (max (v30 (ix2 (0 : Fin 1) l) * Cert.BN.wInv
                  - (v27 (ix2 (0 : Fin 1) l) * Cert.BN.wInv) * (v27 (ix2 (0 : Fin 1) l) * Cert.BN.wInv)) 0 + Cert.BN.wEps))
        + v48 (ix2 (0 : Fin 1) l) := by
  have hb : ∀ v : Vec Ideal S1x128 .f32,
      broadcastTo S8192x128 v broadcasts_S1x128_S8192x128 (ix2 r l) = v (ix2 (0 : Fin 1) l) :=
    fun v => broadcastTo_1b_ab_apply v _ r l
  unfold k0_pay6
  rw [shapeCast_self, shapeCast_self]
  show (v43 (ix2 r l) - broadcastTo S8192x128 _ broadcasts_S1x128_S8192x128 (ix2 r l))
      * broadcastTo S8192x128 _ broadcasts_S1x128_S8192x128 (ix2 r l)
      + broadcastTo S8192x128 _ broadcasts_S1x128_S8192x128 (ix2 r l) = _
  rw [hb, hb, hb]
  show (v43 (ix2 r l) - v27 (ix2 (0 : Fin 1) l) * Cert.BN.wInv)
          * (v37 (ix2 (0 : Fin 1) l)
              * Ideal.rsqrt (max (v30 (ix2 (0 : Fin 1) l) * Cert.BN.wInv
                  - (v27 (ix2 (0 : Fin 1) l) * Cert.BN.wInv) * (v27 (ix2 (0 : Fin 1) l) * Cert.BN.wInv))
                  (Ideal.ofBits .f32 0x00000000#32) + Cert.BN.wEps))
        + v48 (ix2 (0 : Fin 1) l) = _
  rw [Ideal.ofBits_zero_f32]

end Cert.KernelIdeal.Hand

end
-- ==== Proof.KI.Value.lean ====
/-
  The streaming kernel's output array, read as values over the extended reals: it is the centred form
  `(x − m) · (g · r) + b` of every column of the input.

  The grid's point `t` works on tile `t % 16` (512 rows) of strip `t / 16` (128 columns). Within a strip the two
  running totals restart from zero at the first tile, and at every tile lane `l` gains the tile's column sum (of the
  entries, of their squares); since `0 + a = a`, after tile `i` lane `l` holds the running totals `accSum` of column
  `128 · strip + l` up to tile `i`: by induction on the point, row `q` of tile `i` being row `512 · i + q` of the column.
  The strip buffer's row `ρ` is row `ρ % 512` of tile `ρ / 512`, that is row `ρ` of the column. At the strip's last
  tile the output block is computed from the two totals, the strip, the gain and the offset, and its entry at row `ρ`,
  lane `l` is the centred form of the column at row `ρ`. That block is written back to rows `0 … 8191`, columns
  `128 · strip … 128 · strip + 127` of the output; the eight strips' blocks cover the array.
-/
import proofs.«101858_g2000105174111989_pallasbulk_1044_5_alg».proof.Proof.Spec
import proofs.«101858_g2000105174111989_pallasbulk_1044_5_alg».proof.Proof.KI.Data
import proofs.«101858_g2000105174111989_pallasbulk_1044_5_alg».proof.Proof.KI.Blocks
import proofs.«101858_g2000105174111989_pallasbulk_1044_5_alg».proof.Proof.KI.Payloads
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen Idealize.ShloMosaic Idealize.ShloMosaic.ValueIdx Idealize.ShloMosaic.TcCoe
open Idealize.SL Idealize.SL.Sem
open Idealize.ShloMosaic.Pipeline (Dat)

namespace Value

/-! ## The running totals are the column's accumulated tile sums -/

section Totals

variable (m : (ℓ : Loc nD τ sig) → Buf (Elt Ideal) ℓ)

/-- Two spellings of one entry of the input array. -/
theorem entry_congr (X : S8192x1024.Idx → EReal) (r r' : Fin 8192) (k k' : Fin 1024) (hr : r.val = r'.val) (hk : k.val = k'.val) :
    X (ix2 r k) = X (ix2 r' k') := by
  obtain rfl := Fin.ext hr; obtain rfl := Fin.ext hk; rfl

/-- A 512 × 128 tile whose row `q`, lane `l`, is row `512 · i + q` of a column has that column's tile sum at lane `l`. -/
theorem tile_sum_of (x : FVec Ideal S512x128 .f32) (f : Fin 8192 → EReal) (i : Fin 16) (l : Fin 128)
    (hx : ∀ q : Fin 512, x (ix2 q l) = f (Cert.BN.rowOf i q)) :
    ∑ q : Fin 512, x (ix2 q l) = Cert.BN.tileSum f i :=
  Finset.sum_congr rfl fun q _ => hx q

theorem tile_sumsq_of (x : FVec Ideal S512x128 .f32) (f : Fin 8192 → EReal) (i : Fin 16) (l : Fin 128)
    (hx : ∀ q : Fin 512, x (ix2 q l) = f (Cert.BN.rowOf i q)) :
    ∑ q : Fin 512, x (ix2 q l) * x (ix2 q l) = Cert.BN.tileSum (fun r => f r * f r) i :=
  Finset.sum_congr rfl fun q _ => by rw [hx q]

/-- Row `q`, lane `l` of the tile at point `n` is row `512 · (n % 16) + q` of column `128 · (n / 16) + l`. -/
theorem tile_apply (c : Dev nD) (n : ℕ) (hn : n < cfg0.N) (k : Fin 1024) (l : Fin 128) (hk : k.val = 128 * (n / 16) + l.val)
    (i : Fin 16) (hi : n % 16 = i.val) (q : Fin 512) :
    (tile m c ⟨n, hn⟩ : S512x128.Idx → EReal) (ix2 q l)
      = Cert.BN.column (m ((c : Thread nD τ).loc main_arg0) : S8192x1024.Idx → EReal) k (Cert.BN.rowOf i q) :=
  (iblk0_apply m c ⟨n, hn⟩ q l).trans
    (entry_congr (m ((c : Thread nD τ).loc main_arg0) : S8192x1024.Idx → EReal) _ _ _ _
      (by show 512 * (n % 16) + q.val = 512 * i.val + q.val; rw [hi]) (by show 128 * (n / 16) + l.val = k.val; rw [hk]))

/-- At a strip's first tile the first total is the first tile sum of the strip's column. -/
theorem totals_first_sum (c : Dev nD) (l : Fin 128) (n : ℕ) (hn : n < cfg0.N) (k : Fin 1024) (hk : k.val = 128 * (n / 16) + l.val)
    (h0 : n % 16 = 0) (hi : 0 < 16) :
    ((totals m c n hn).1 : S1x128.Idx → EReal) (ix2 (0 : Fin 1) l) = Cert.BN.accSum (Cert.BN.column (m ((c : Thread nD τ).loc main_arg0) : S8192x1024.Idx → EReal) k) 0 hi := by
  rw [totals_first m c ⟨n, hn⟩ h0]
  dsimp only
  refine (pay3_apply _ _ l).trans ?_
  rw [pay1_apply, zero_add]
  exact tile_sum_of (tile m c ⟨n, hn⟩) _ ⟨0, hi⟩ l fun q => tile_apply m c n hn k l hk ⟨0, hi⟩ h0 q

theorem totals_first_sumsq (c : Dev nD) (l : Fin 128) (n : ℕ) (hn : n < cfg0.N) (k : Fin 1024) (hk : k.val = 128 * (n / 16) + l.val)
    (h0 : n % 16 = 0) (hi : 0 < 16) :
    ((totals m c n hn).2 : S1x128.Idx → EReal) (ix2 (0 : Fin 1) l)
      = Cert.BN.accSum (fun r => Cert.BN.column (m ((c : Thread nD τ).loc main_arg0) : S8192x1024.Idx → EReal) k r * Cert.BN.column (m ((c : Thread nD τ).loc main_arg0) : S8192x1024.Idx → EReal) k r) 0 hi := by
  rw [totals_first m c ⟨n, hn⟩ h0]
  dsimp only
  refine (pay4_apply _ _ l).trans ?_
  rw [pay2_apply, zero_add]
  exact tile_sumsq_of (tile m c ⟨n, hn⟩) _ ⟨0, hi⟩ l fun q => tile_apply m c n hn k l hk ⟨0, hi⟩ h0 q

/-- After tile `i` of a strip, lane `l` of the first total is the running total of the tile sums of the strip's column
    `128 · strip + l`: by induction on the point, the strip fixed. -/
theorem totals_sum (c : Dev nD) (l : Fin 128) (n : ℕ) : ∀ (hn : n < cfg0.N) (k : Fin 1024) (hk : k.val = 128 * (n / 16) + l.val)
    (i : ℕ) (hi : i < 16) (hin : n % 16 = i),
    ((totals m c n hn).1 : S1x128.Idx → EReal) (ix2 (0 : Fin 1) l) = Cert.BN.accSum (Cert.BN.column (m ((c : Thread nD τ).loc main_arg0) : S8192x1024.Idx → EReal) k) i hi := by
  induction n with
  | zero =>
    intro hn k hk i hi hin
    obtain rfl : i = 0 := by omega
    exact totals_first_sum m c l 0 hn k hk rfl hi
  | succ n ih =>
    intro hn k hk i hi hin
    by_cases h0 : (n + 1) % 16 = 0
    · obtain rfl : i = 0 := by omega
      exact totals_first_sum m c l (n + 1) hn k hk h0 hi
    · obtain ⟨j, rfl⟩ : ∃ j, i = j + 1 := ⟨i - 1, by omega⟩
      rw [totals_next m c ⟨n + 1, hn⟩ h0]
      dsimp only
      refine (pay3_apply _ _ l).trans ?_
      show _ = Cert.BN.accSum _ j _ + Cert.BN.tileSum _ ⟨j + 1, hi⟩
      exact congrArg₂ (· + ·) (ih (Nat.lt_of_succ_lt hn) k (by omega) j (by omega) (by omega))
        (tile_sum_of (tile m c ⟨n + 1, hn⟩) _ ⟨j + 1, hi⟩ l fun q => tile_apply m c (n + 1) hn k l hk ⟨j + 1, hi⟩ hin q)

/-- And lane `l` of the second total is the running total of the tile sums of the column's squares. -/
theorem totals_sumsq (c : Dev nD) (l : Fin 128) (n : ℕ) : ∀ (hn : n < cfg0.N) (k : Fin 1024) (hk : k.val = 128 * (n / 16) + l.val)
    (i : ℕ) (hi : i < 16) (hin : n % 16 = i),
    ((totals m c n hn).2 : S1x128.Idx → EReal) (ix2 (0 : Fin 1) l)
      = Cert.BN.accSum (fun r => Cert.BN.column (m ((c : Thread nD τ).loc main_arg0) : S8192x1024.Idx → EReal) k r * Cert.BN.column (m ((c : Thread nD τ).loc main_arg0) : S8192x1024.Idx → EReal) k r) i hi := by
  induction n with
  | zero =>
    intro hn k hk i hi hin
    obtain rfl : i = 0 := by omega
    exact totals_first_sumsq m c l 0 hn k hk rfl hi
  | succ n ih =>
    intro hn k hk i hi hin
    by_cases h0 : (n + 1) % 16 = 0
    · obtain rfl : i = 0 := by omega
      exact totals_first_sumsq m c l (n + 1) hn k hk h0 hi
    · obtain ⟨j, rfl⟩ : ∃ j, i = j + 1 := ⟨i - 1, by omega⟩
      rw [totals_next m c ⟨n + 1, hn⟩ h0]
      dsimp only
      refine (pay4_apply _ _ l).trans ?_
      show _ = Cert.BN.accSum _ j _ + Cert.BN.tileSum _ ⟨j + 1, hi⟩
      exact congrArg₂ (· + ·) (ih (Nat.lt_of_succ_lt hn) k (by omega) j (by omega) (by omega))
        (tile_sumsq_of (tile m c ⟨n + 1, hn⟩) _ ⟨j + 1, hi⟩ l fun q => tile_apply m c (n + 1) hn k l hk ⟨j + 1, hi⟩ hin q)

end Totals

/-! ## The output block at a strip's last tile, entry by entry -/

section Output

variable (m : (ℓ : Loc nD τ sig) → Buf (Elt Ideal) ℓ)

/-- Row `ρ`, lane `l` of the strip is row `ρ` of column `128 · strip + l`: tile `ρ / 512`, row `ρ % 512`. -/
theorem strip_apply (c : Dev nD) (t : Fin cfg0.N) (k : Fin 1024) (l : Fin 128) (hk : k.val = 128 * (t.val / 16) + l.val)
    (ρ : Fin 8192) :
    (stripOf m c t : S8192x128.Idx → EReal) (ix2 ρ l) = (m ((c : Thread nD τ).loc main_arg0) : S8192x1024.Idx → EReal) (ix2 ρ k) := by
  have hρ := ρ.isLt
  have ht : t.val < 128 := lt_of_lt_of_eq t.isLt N128
  refine (iblk0_apply m c ⟨16 * (t.val / 16) + ρ.val / 512, lt_of_lt_of_eq (show 16 * (t.val / 16) + ρ.val / 512 < 128 by omega) N128.symm⟩ ⟨ρ.val % 512, Nat.mod_lt _ (by norm_num)⟩ ⟨l.val, l.isLt⟩).trans ?_
  exact entry_congr (m ((c : Thread nD τ).loc main_arg0) : S8192x1024.Idx → EReal) _ _ _ _
    (by show 512 * ((16 * (t.val / 16) + ρ.val / 512) % 16) + ρ.val % 512 = ρ.val; omega)
    (by show 128 * ((16 * (t.val / 16) + ρ.val / 512) / 16) + l.val = k.val; omega)

/-- The normalisation written with the column's two totals, its entry, the gain and the offset is the centred form. -/
theorem centred_of (f : Fin 8192 → EReal) (g b : EReal) (ρ : Fin 8192) (S Q x g' b' : EReal)
    (hS : S = Cert.BN.colSum f) (hQ : Q = Cert.BN.colSum (fun r => f r * f r)) (hx : x = f ρ) (hg : g' = g) (hb : b' = b) :
    (x - S * Cert.BN.wInv) * (g' * Ideal.rsqrt (max (Q * Cert.BN.wInv - (S * Cert.BN.wInv) * (S * Cert.BN.wInv)) 0 + Cert.BN.wEps)) + b'
      = Cert.BN.centred f g b ρ := by
  subst hS hQ hx hg hb; rfl

/-- At a strip's last tile the output block's entry at row `ρ`, lane `l` is the centred form of column `128 · strip + l` at row `ρ`. -/
theorem out_apply (c : Dev nD) (t : Fin cfg0.N) (h15 : t.val % 16 = 15) (k : Fin 1024) (l : Fin 128)
    (hk : k.val = 128 * (t.val / 16) + l.val) (ρ : Fin 8192) :
    (outBlock m c t : S8192x128.Idx → EReal) (ix2 ρ l)
      = Cert.BN.centred (Cert.BN.column (m ((c : Thread nD τ).loc main_arg0) : S8192x1024.Idx → EReal) k) ((m ((c : Thread nD τ).loc main_arg1) : S1024.Idx → EReal) (ix1 k)) ((m ((c : Thread nD τ).loc main_arg2) : S1024.Idx → EReal) (ix1 k)) ρ := by
  have hk' : (⟨128 * (t.val / 16) + l.val, by have := k.isLt; omega⟩ : Fin 1024) = k := Fin.ext hk.symm
  unfold outBlock
  refine (pay6_apply _ _ _ _ _ ρ l).trans ?_
  exact centred_of (Cert.BN.column (m ((c : Thread nD τ).loc main_arg0) : S8192x1024.Idx → EReal) k) _ _ ρ _ _ _ _ _
    (totals_sum m c l t.val t.isLt k hk 15 (by norm_num) h15)
    (totals_sumsq m c l t.val t.isLt k hk 15 (by norm_num) h15)
    (strip_apply m c t k l hk ρ)
    ((iblk1_apply m c t l).trans (congrArg (fun j => (m ((c : Thread nD τ).loc main_arg1) : S1024.Idx → EReal) (ix1 j)) hk'))
    ((iblk2_apply m c t l).trans (congrArg (fun j => (m ((c : Thread nD τ).loc main_arg2) : S1024.Idx → EReal) (ix1 j)) hk'))

end Output

/-! ## From the written-back blocks to the output array -/

section Array

variable (m : (ℓ : Loc nD τ sig) → Buf (Elt Ideal) ℓ)

/-- The output window's block at point `t` is the whole column range of strip `t / 16`: block index `(0, t / 16)`. -/
theorem idx3 : ∀ t : Fin cfg0.N, win0_3.index t (0 : Fin 2) = 0 ∧ win0_3.index t (1 : Fin 2) = t.val / 16 :=
  (by decide +kernel : ∀ t : Fin grid0.N, _)

/-- The centred form of every column, as contents of the output array. -/
abbrev G (c : Dev nD) : Buf (Elt Ideal) ((c : Thread nD τ).loc main_v2) :=
  Cert.BN.centredArr (m ((c : Thread nD τ).loc main_arg0)) (m ((c : Thread nD τ).loc main_arg1)) (m ((c : Thread nD τ).loc main_arg2))

/-- Row `ρ`, lane `l` of the output block at point `t` sits at row `ρ`, column `128 · (t / 16) + l` of the array. -/
theorem emb3 (t : Fin cfg0.N) (ρ : Fin 8192) (l : Fin 128) (k : Fin 1024) (hk : k.val = 128 * (t.val / 16) + l.val) :
    ((cfg0.win 3).blk t).view.emb (ix2 ρ l) = (ix2 ρ k : S8192x1024.Idx) := by
  obtain ⟨e0, e1⟩ := idx3 t
  funext a; apply Fin.ext
  match a with
  | ⟨0, _⟩ => show win0_3.index t (0 : Fin 2) * 8192 + 1 * ρ.val = ρ.val; omega
  | ⟨1, _⟩ => show win0_3.index t (1 : Fin 2) * 128 + 1 * l.val = k.val; omega

/-- What a strip's last tile writes back is its block of the centred array. -/
theorem flushed_eq (c : Dev nD) (t : Fin cfg0.N) (hf : (cfg0.win 3).flush t = true) :
    (dats (F := Ideal) m 0 c).flushed 3 t = ((cfg0.win 3).blk t).view.read (Elt Ideal) (G m c) := by
  have h15 : t.val % 16 = 15 := (flush0_3 t).mp hf
  have ht : t.val < 128 := lt_of_lt_of_eq t.isLt N128
  show (cfg0.win 3).cut (grid0.coords t) ((dats (F := Ideal) m 0 c).after 3 t) = _
  rw [after3]
  funext y
  obtain ⟨ρ, l, rfl⟩ : ∃ (ρ : Fin 8192) (l : Fin 128), y = ix2 ρ l := ⟨_, _, eq_ix2 y⟩
  have hl := l.isLt
  exact (out_apply m c t h15 ⟨128 * (t.val / 16) + l.val, by omega⟩ l rfl ρ).trans
    (congrArg (G m c) (emb3 t ρ l ⟨128 * (t.val / 16) + l.val, by omega⟩ rfl)).symm

/-- Every entry of the array lies in the block some strip's last tile writes back. -/
theorem covered (i : S8192x1024.Idx) : ∃ t : Fin cfg0.N, (cfg0.win 3).flush t = true ∧ i ∈ ((cfg0.win 3).blk t).view.set := by
  have hi0 : (i 0).val < 8192 := idx2_lt0 i
  have hi1 : (i 1).val < 1024 := idx2_lt1 i
  obtain ⟨t, ht⟩ : ∃ t : Fin cfg0.N, t.val = 16 * ((i 1).val / 128) + 15 := ⟨⟨16 * ((i 1).val / 128) + 15, lt_of_lt_of_eq (show 16 * ((i 1).val / 128) + 15 < 128 by omega) N128.symm⟩, rfl⟩
  obtain ⟨e0, e1⟩ := idx3 t
  refine ⟨t, (flush0_3 t).mpr (by omega), ?_⟩
  show i ∈ ((View.whole main_v2).slice (win0_3.rect t)).set
  rw [View.set_slice_whole, Rect.mem_set_unit]
  intro a
  match a with
  | ⟨0, _⟩ => show win0_3.index t (0 : Fin 2) * 8192 ≤ (i 0).val ∧ (i 0).val < win0_3.index t (0 : Fin 2) * 8192 + 8192; omega
  | ⟨1, _⟩ => show win0_3.index t (1 : Fin 2) * 128 ≤ (i 1).val ∧ (i 1).val < win0_3.index t (1 : Fin 2) * 128 + 128; omega

end Array

end Value

open Value

/-- The output array after the region is the centred form of every column of the input, with the gain and the offset. -/
theorem final (m : (ℓ : Loc nD τ sig) → Buf (Elt Ideal) ℓ) (c : Dev nD) :
    (dats (F := Ideal) m 0 c).arrAt 3 cfg0.N
      = Cert.BN.centredArr (m ((c : Thread nD τ).loc main_arg0)) (m ((c : Thread nD τ).loc main_arg1)) (m ((c : Thread nD τ).loc main_arg2)) :=
  (dats (F := Ideal) m 0 c).arrAt_eq_of_cover 3 (G m c) (flushed_eq m c) fun i => covered i

end Cert.KernelIdeal.Hand
end
-- ==== Proof.KI.Run.lean ====
/-
  The idealized kernel's run with its result named: the output array ends at the centred form of batch
  normalisation applied to every column of the input, and the three argument arrays end as launched.
-/
import proofs.«101858_g2000105174111989_pallasbulk_1044_5_alg».proof.Proof.KI.Body
import proofs.«101858_g2000105174111989_pallasbulk_1044_5_alg».proof.Proof.KI.Value

noncomputable section

namespace Cert.KernelIdeal.Hand

open Cert.KernelIdeal Cert.KernelIdeal.Gen
open Idealize.ShloMosaic Idealize.ShloMosaic.TcCoe Idealize.SL Idealize.SL.Sem

/-- The frame run read at the output window's array (what the strips' write-backs leave) and at the arguments. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2)
          = Cert.BN.centredArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans (final m c),
     ((h c).1 0).trans (((dats m 0 c).arrAt_in 0 rfl _).trans ((A_eq m c 0).trans (V_main_arg0 m c))),
     ((h c).2 main_arg1 (Pipeline.mem_restRefs_of main_arg1 (by decide) (by decide))).trans (V_main_arg1 m c),
     ((h c).2 main_arg2 (Pipeline.mem_restRefs_of main_arg2 (by decide) (by decide))).trans (V_main_arg2 m c)⟩)
    (run_main (F := Ideal) m ρ)

end Cert.KernelIdeal.Hand

end
-- ==== Proof.RefApply.lean ====
/-
  The second region of the reference program, read as one function of the arrays it finds.

  Each grid point `t` loads the tile of x at rows `512 · t … 512 · t + 511` and the four one-row arrays whole (the
  column totals, the totals of squares, the gain, the offset), and stores `x · scale + shift` where, per column,
  `mean = total · w`, `scale = rsqrt (max (squares · w − mean · mean) 0 + ε) · gain` and `shift = offset − mean · scale`.
  The sixteen tiles cover the output array, so after the last point the array holds that function at every index.
-/
import proofs.«101858_g2000105174111989_pallasbulk_1044_5_alg».proof.Proof.Gen.ReferenceIdeal.Frame
import proofs.«101858_g2000105174111989_pallasbulk_1044_5_alg».proof.Proof.Spec
import Idealize.ShloMosaic.Lib.Pipeline.Value
import Idealize.ShloMosaic.Lib.ValueIdx
import Idealize.ShloMosaic.Lib.ValueLayout

set_option maxRecDepth 16384

noncomputable section

namespace Cert.ReferenceIdeal.RefValue.Apply

open Cert.ReferenceIdeal Cert.ReferenceIdeal.Gen
open Idealize.ShloMosaic Idealize.ShloMosaic.TcCoe Idealize.SL.Sem Idealize.ShloMosaic.ValueIdx
open Idealize.ShloMosaic.Pipeline (Dat)

/-- The zero offsets of a whole-buffer load or store. -/
theorem hz : (![0, 0] : Fin 2 → Nat) = fun _ => 0 := funext fun a => by fin_cases a <;> rfl

/-- The output entry from the entry of x, the column's total and total of squares, the gain and the offset. -/
def applyElt (x s q g b : EReal) : EReal :=
  x * (Ideal.rsqrt (max (q * Cert.BN.wInv - s * Cert.BN.wInv * (s * Cert.BN.wInv)) 0 + Cert.BN.wEps) * g)
    + (b - s * Cert.BN.wInv * (Ideal.rsqrt (max (q * Cert.BN.wInv - s * Cert.BN.wInv * (s * Cert.BN.wInv)) 0 + Cert.BN.wEps) * g))

/-- A one-row array broadcast down 512 rows: entry `(r, k)` is entry `(0, k)` of the row. -/
theorem bcast_row (v : FVec Ideal S1x1024 .f32) (r : Fin 512) (k : Fin 1024) :
    broadcastTo S512x1024 v broadcasts_S1x1024_S512x1024 (ix2 r k) = v (ix2 (0 : Fin 1) k) :=
  broadcastTo_apply v _ (ix2 r k) (ix2 (0 : Fin 1) k) (fun a => by match a with | ⟨0, _⟩ => rfl | ⟨1, _⟩ => rfl)

/-- The value the body stores, at row `r` and column `k` of the tile: the scale-and-shift form of the tile's entry and
    of column `k` of the four one-row arrays (the zero word is the real number zero). -/
theorem pay_apply (x0 : Vec Ideal S512x1024 .f32) (x1 x2 x3 x4 : Vec Ideal S1x1024 .f32) (r : Fin 512) (k : Fin 1024) :
    k1_pay1 x0 x1 x2 x3 x4 (ix2 r k)
      = applyElt (x0 (ix2 r k)) (x1 (ix2 (0 : Fin 1) k)) (x2 (ix2 (0 : Fin 1) k)) (x3 (ix2 (0 : Fin 1) k)) (x4 (ix2 (0 : Fin 1) k)) := by
  unfold k1_pay1 applyElt
  simp only [shapeCast_self]
  rw [addf_apply, mulf_apply, bcast_row, bcast_row]
  rw [show (0 : EReal) = Ideal.ofBits .f32 0x00000000#32 from Ideal.ofBits_zero_f32.symm]
  rfl

/-- The statistics' entry of column `k`: row 0 of a one-row array. -/
abbrev statIx (k : Fin 1024) : S1x1024.Idx := ix2 (0 : Fin 1) k

/-- The whole output array from the array x, the two one-row arrays of totals, and the one-row gain and offset. -/
def applyArr (X : S8192x1024.Idx → EReal) (S Q G B : S1x1024.Idx → EReal) : S8192x1024.Idx → EReal :=
  fun j => applyElt (X j) (S (statIx (j 1))) (Q (statIx (j 1))) (G (statIx (j 1))) (B (statIx (j 1)))

variable (V : (c : Dev nD) → (b : Ref sig .tc) → Buf (Elt Ideal) ((c : Thread nD τ).loc b))

/-- Where each window's block sits at point `t`: the tile of x and the output tile at block row `t`, block column 0;
    the four one-row arrays at block (0, 0). -/
theorem idx_facts : ∀ t : Fin cfg1.N,
    win1_0.index t (0 : Fin 2) = win1_5.index t (0 : Fin 2) ∧ win1_0.index t (1 : Fin 2) = win1_5.index t (1 : Fin 2)
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Row `r` of the tile of grid point `t`: row `512 · t + r` of the array. -/
def rowAt (t : Fin cfg1.N) (r : Fin 512) : Fin 8192 :=
  ⟨512 * t.val + r.val, by have h : t.val < grid1.N := t.isLt; have := N_1; have := r.isLt; omega⟩

/-- The output's tile at point `t` sits at rows `512 · t …`, all columns. -/
theorem emb5_apply (t : Fin cfg1.N) (r : Fin 512) (k : Fin 1024) :
    ((cfg1.win 5).blk t).view.emb (ix2 r k) = (ix2 (rowAt t r) k : S8192x1024.Idx) := by
  obtain ⟨e0, e1, e2, e3, -⟩ := idx_facts t
  funext a; apply Fin.ext
  match a with
  | ⟨0, _⟩ => show win1_5.index t (0 : Fin 2) * 512 + 1 * r.val = 512 * t.val + r.val; omega
  | ⟨1, _⟩ => show win1_5.index t (1 : Fin 2) * 1024 + 1 * k.val = k.val; omega

/-- The tile of x read at point `t` is the same rows of x. -/
theorem iblk_x (c : Dev nD) (t : Fin cfg1.N) (r : Fin 512) (k : Fin 1024) :
    (iblk1 V c 0 t : Vec Ideal S512x1024 .f32) (ix2 r k) = (V c main_arg0 : S8192x1024.Idx → EReal) (ix2 (rowAt t r) k) := by
  obtain ⟨e0, e1, e2, e3, -⟩ := idx_facts t
  show (V c main_arg0 : S8192x1024.Idx → EReal) (((cfg1.win 0).blk t).view.emb (ix2 r k)) = _
  refine congrArg (V c main_arg0 : S8192x1024.Idx → EReal) ?_
  funext a; apply Fin.ext
  match a with
  | ⟨0, _⟩ => show win1_0.index t (0 : Fin 2) * 512 + 1 * r.val = 512 * t.val + r.val; omega
  | ⟨1, _⟩ => show win1_0.index t (1 : Fin 2) * 1024 + 1 * k.val = k.val; omega

/-- The one-row array of column totals is read whole at every point. -/
theorem iblk_s (c : Dev nD) (t : Fin cfg1.N) (k : Fin 1024) :
    (iblk1 V c 1 t : Vec Ideal S1x1024 .f32) (ix2 (0 : Fin 1) k) = (V c main_v2_0 : S1x1024.Idx → EReal) (ix2 (0 : Fin 1) k) := by
  obtain ⟨-, -, -, -, e1a, e1b, e2a, e2b, e3a, e3b, e4a, e4b⟩ := idx_facts t
  show (V c main_v2_0 : S1x1024.Idx → EReal) (((cfg1.win 1).blk t).view.emb (ix2 (0 : Fin 1) k)) = _
  refine congrArg (V c main_v2_0 : S1x1024.Idx → EReal) ?_
  funext a; apply Fin.ext
  match a with
  | ⟨0, _⟩ => show win1_1.index t (0 : Fin 2) * 1 + 1 * 0 = 0; omega
  | ⟨1, _⟩ => show win1_1.index t (1 : Fin 2) * 1024 + 1 * k.val = k.val; omega

/-- The one-row array of totals of squares is read whole at every point. -/
theorem iblk_q (c : Dev nD) (t : Fin cfg1.N) (k : Fin 1024) :
    (iblk1 V c 2 t : Vec Ideal S1x1024 .f32) (ix2 (0 : Fin 1) k) = (V c main_v2_1 : S1x1024.Idx → EReal) (ix2 (0 : Fin 1) k) := by
  obtain ⟨-, -, -, -, e1a, e1b, e2a, e2b, e3a, e3b, e4a, e4b⟩ := idx_facts t
  show (V c main_v2_1 : S1x1024.Idx → EReal) (((cfg1.win 2).blk t).view.emb (ix2 (0 : Fin 1) k)) = _
  refine congrArg (V c main_v2_1 : S1x1024.Idx → EReal) ?_
  funext a; apply Fin.ext
  match a with
  | ⟨0, _⟩ => show win1_2.index t (0 : Fin 2) * 1 + 1 * 0 = 0; omega
  | ⟨1, _⟩ => show win1_2.index t (1 : Fin 2) * 1024 + 1 * k.val = k.val; omega

/-- The one-row gain is read whole at every point. -/
theorem iblk_g (c : Dev nD) (t : Fin cfg1.N) (k : Fin 1024) :
    (iblk1 V c 3 t : Vec Ideal S1x1024 .f32) (ix2 (0 : Fin 1) k) = (V c main_v0 : S1x1024.Idx → EReal) (ix2 (0 : Fin 1) k) := by
  obtain ⟨-, -, -, -, e1a, e1b, e2a, e2b, e3a, e3b, e4a, e4b⟩ := idx_facts t
  show (V c main_v0 : S1x1024.Idx → EReal) (((cfg1.win 3).blk t).view.emb (ix2 (0 : Fin 1) k)) = _
  refine congrArg (V c main_v0 : S1x1024.Idx → EReal) ?_
  funext a; apply Fin.ext
  match a with
  | ⟨0, _⟩ => show win1_3.index t (0 : Fin 2) * 1 + 1 * 0 = 0; omega
  | ⟨1, _⟩ => show win1_3.index t (1 : Fin 2) * 1024 + 1 * k.val = k.val; omega

/-- The one-row offset is read whole at every point. -/
theorem iblk_b (c : Dev nD) (t : Fin cfg1.N) (k : Fin 1024) :
    (iblk1 V c 4 t : Vec Ideal S1x1024 .f32) (ix2 (0 : Fin 1) k) = (V c main_v1 : S1x1024.Idx → EReal) (ix2 (0 : Fin 1) k) := by
  obtain ⟨-, -, -, -, e1a, e1b, e2a, e2b, e3a, e3b, e4a, e4b⟩ := idx_facts t
  show (V c main_v1 : S1x1024.Idx → EReal) (((cfg1.win 4).blk t).view.emb (ix2 (0 : Fin 1) k)) = _
  refine congrArg (V c main_v1 : S1x1024.Idx → EReal) ?_
  funext a; apply Fin.ext
  match a with
  | ⟨0, _⟩ => show win1_4.index t (0 : Fin 2) * 1 + 1 * 0 = 0; omega
  | ⟨1, _⟩ => show win1_4.index t (1 : Fin 2) * 1024 + 1 * k.val = k.val; omega

/-- What point `t` writes back is its tile of the whole output array. -/
theorem flushed_eq (c : Dev nD) (t : Fin cfg1.N) :
    (dat1 V c).flushed 5 t = ((cfg1.win 5).blk t).view.read (Elt Ideal)
      (applyArr (V c main_arg0) (V c main_v2_0) (V c main_v2_1) (V c main_v0) (V c main_v1)) := by
  show (cfg1.win 5).cut (grid1.coords t) ((dat1 V c).after 5 t) = _
  rw [after1_5]
  unfold out1_5
  rw [View.canon_unit_zero hz]
  simp only [View.ld_unit_zero (S := S512x1024) hz, View.ld_unit_zero (S := S1x1024) hz]
  funext j
  obtain ⟨r, k, rfl⟩ : ∃ (r : Fin 512) (k : Fin 1024), j = ix2 r k := ⟨j 0, j 1, eq_ix2 j⟩
  show k1_pay1 (iblk1 V c 0 t) (iblk1 V c 1 t) (iblk1 V c 2 t) (iblk1 V c 3 t) (iblk1 V c 4 t) (ix2 r k)
    = applyArr (V c main_arg0) (V c main_v2_0) (V c main_v2_1) (V c main_v0) (V c main_v1) (((cfg1.win 5).blk t).view.emb (ix2 r k))
  rw [emb5_apply]
  refine (pay_apply (iblk1 V c 0 t) (iblk1 V c 1 t) (iblk1 V c 2 t) (iblk1 V c 3 t) (iblk1 V c 4 t) r k).trans ?_
  rw [iblk_x V c t r k, iblk_s V c t k, iblk_q V c t k, iblk_g V c t k, iblk_b V c t k]
  rfl

/-- An index of the output array is in point `t`'s tile iff each coordinate is in the tile's range. -/
theorem mem_blk (t : Fin cfg1.N) (i : S8192x1024.Idx) :
    i ∈ ((cfg1.win 5).blk t).view.set ↔ ∀ a : Fin 2, win1_5.index t a * S512x1024.size a ≤ (i a).val ∧ (i a).val < win1_5.index t a * S512x1024.size a + S512x1024.size a := by
  show i ∈ ((View.whole main_v3).slice (win1_5.rect t)).set ↔ _
  rw [View.set_slice_whole, Rect.mem_set_unit]
  exact Iff.rfl

/-- Every index of the output array is in some point's tile: row `r` in the tile of point `r / 512`. -/
theorem cover (i : S8192x1024.Idx) : ∃ t : Fin cfg1.N, (cfg1.win 5).flush t = true ∧ i ∈ ((cfg1.win 5).blk t).view.set := by
  have hi0 : (i 0).val < 8192 := (i 0).isLt
  have hi1 : (i 1).val < 1024 := (i 1).isLt
  have hN : grid1.N = 16 := N_1
  let t : Fin cfg1.N := ⟨(i 0).val / 512, by show (i 0).val / 512 < grid1.N; omega⟩
  refine ⟨t, flush1_5 t, ?_⟩
  obtain ⟨-, -, e2, e3, -⟩ := idx_facts t
  have ht : t.val = (i 0).val / 512 := rfl
  rw [mem_blk]
  intro a
  match a with
  | ⟨0, _⟩ => show win1_5.index t (0 : Fin 2) * 512 ≤ (i 0).val ∧ (i 0).val < win1_5.index t (0 : Fin 2) * 512 + 512; omega
  | ⟨1, _⟩ => show win1_5.index t (1 : Fin 2) * 1024 ≤ (i 1).val ∧ (i 1).val < win1_5.index t (1 : Fin 2) * 1024 + 1024; omega

/-- The second region's result: after the last grid point the output array is the scale-and-shift form of the arrays
    the region found. -/
theorem apply_final (c : Dev nD) :
    (dat1 V c).arrAt 5 cfg1.N = applyArr (V c main_arg0) (V c main_v2_0) (V c main_v2_1) (V c main_v0) (V c main_v1) :=
  (dat1 V c).arrAt_eq_of_cover 5 _ (fun t _ => flushed_eq V c t) cover

end Cert.ReferenceIdeal.RefValue.Apply

end
-- ==== Proof.RefRunDat.lean ====
import proofs.«101858_g2000105174111989_pallasbulk_1044_5_alg».proof.Proof.Gen.ReferenceIdeal.Frame
import proofs.«101858_g2000105174111989_pallasbulk_1044_5_alg».proof.Proof.Spec

set_option maxRecDepth 16384

noncomputable section

namespace Cert.ReferenceIdeal.RefValue

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program with its result named: every weakly fair execution from a memory with zero counters
    terminates, the result array holds what the second region's write-backs leave (its array after the last grid
    point), and the three argument arrays are as launched. -/
theorem run_dat : θ_run defs (onTc (τ := τ) (main (F := F))) ⟨m, fun _ => 0, ρ⟩ (fun r => ∀ c : Dev nD,
      r.2.mem ((c.tc : Thread nD τ).loc main_v3) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v3 (by decide))).trans (W3_arr m ρ c 5),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.ReferenceIdeal.RefValue

end
-- ==== Proof.RefStats.lean ====
/-
  The statistics region of the scale-and-shift program, read as values over the extended reals.

  The region visits the sixteen 512-row tiles of `x : [8192, 1024]` in order. Its two outputs, each one row of 1024
  entries, are set to zero at the first tile, and at every tile each column receives the sum over the tile's 512 rows of
  the entries (first output) and of their squares (second output). Since `0 + a = a`, after tile `n` column `k` of the
  first output is the running total `accSum (column x k) n` of the column's tile sums, and column `k` of the second the
  running total of the tile sums of the column's squares: by induction on the tile, row `r` of tile `t` being row
  `512 · t + r` of the array. Each output is written back once, after the last tile, and its block is the whole row, so
  the two arrays end holding the totals `colSum`.
-/
import proofs.«101858_g2000105174111989_pallasbulk_1044_5_alg».proof.Proof.Spec
import proofs.«101858_g2000105174111989_pallasbulk_1044_5_alg».proof.Proof.Gen.ReferenceIdeal.Frame
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx
open Idealize.ShloMosaic.TcCoe Idealize.SL.Sem
open Idealize.ShloMosaic.Pipeline (Dat)

namespace Stats

/-! ## What each point leaves in the two output buffers, for any float values -/

section Pieces
variable {F : FTy → Type} [FloatOps F]

theorem hz : (![0, 0] : Fin 2 → Nat) = fun _ => 0 := funext fun a => by fin_cases a <;> rfl

/-- After a point that is not the first, the running-sum buffer holds what it held plus the tile's column sums. -/
theorem out_B_1 (c : Dev nD) (i : grid0.Coords) (a2 : Memref sig .tc .vmem S512x1024 .f32) (h2 : a2.IsWhole)
    (a3 : Memref sig .tc .vmem S1x1024 .f32) (h3 : a3.IsWhole) (a4 : Memref sig .tc .vmem S1x1024 .f32) (h4 : a4.IsWhole)
    (hc : ¬cond0_0 i) (x : Vec F S512x1024 .f32) (xo1 xo2 : Vec F S1x1024 .f32) :
    out0_B_1 c i a2 h2 a3 h3 a4 h4 hc x xo1 xo2 = k0_pay3 x xo1 := by
  unfold out0_B_1
  rw [View.read_writes_eq_canon _ _ _ (cover0_B_1 c i a2 h2 a3 h3 a4 h4 hc x xo1 xo2)]
  unfold kernelRun0_B
  dsimp only
  rw [View.canon_unit_zero hz]
  simp only [View.readAt_eq_ld, h2.read_unread, h3.read_unread, View.ld_unit_zero (S := S512x1024) hz,
    View.ld_unit_zero (S := S1x1024) hz]

/-- After a point that is not the first, the running sum-of-squares buffer holds what it held plus the tile's column sums of squares. -/
theorem out_B_2 (c : Dev nD) (i : grid0.Coords) (a2 : Memref sig .tc .vmem S512x1024 .f32) (h2 : a2.IsWhole)
    (a3 : Memref sig .tc .vmem S1x1024 .f32) (h3 : a3.IsWhole) (a4 : Memref sig .tc .vmem S1x1024 .f32) (h4 : a4.IsWhole)
    (hc : ¬cond0_0 i) (x : Vec F S512x1024 .f32) (xo1 xo2 : Vec F S1x1024 .f32) :
    out0_B_2 c i a2 h2 a3 h3 a4 h4 hc x xo1 xo2 = k0_pay4 x xo2 := by
  unfold out0_B_2
  rw [View.read_writes_eq_canon _ _ _ (cover0_B_2 c i a2 h2 a3 h3 a4 h4 hc x xo1 xo2)]
  unfold kernelRun0_B
  dsimp only
  rw [View.canon_unit_zero hz]
  simp only [View.readAt_eq_ld, h2.read_unread, h4.read_unread, View.ld_unit_zero (S := S512x1024) hz,
    View.ld_unit_zero (S := S1x1024) hz]

/-- After the first point the running-sum buffer holds the zero row plus the tile's column sums. -/
theorem out_A_1 (c : Dev nD) (i : grid0.Coords) (a2 : Memref sig .tc .vmem S512x1024 .f32) (h2 : a2.IsWhole)
    (a3 : Memref sig .tc .vmem S1x1024 .f32) (h3 : a3.IsWhole) (a4 : Memref sig .tc .vmem S1x1024 .f32) (h4 : a4.IsWhole)
    (hc : cond0_0 i) (x : Vec F S512x1024 .f32) :
    out0_A_1 c i a2 h2 a3 h3 a4 h4 hc x = k0_pay3 x (k0_pay1 (F := F)) := by
  unfold out0_A_1
  rw [View.read_writes_eq_canon _ _ _ (cover0_A_1 c i a2 h2 a3 h3 a4 h4 hc x)]
  unfold kernelRun0_A
  dsimp only
  sl_unfold_words
  rw [View.canon_cons_unit_zero (S := S1x1024) hz, View.readCov_unit_zero (S := S1x1024) _ hz]
  simp only [View.readAt_eq_ld, h2.read_unread, View.ld_unit_zero (S := S512x1024) hz]

/-- After the first point the running sum-of-squares buffer holds the zero row plus the tile's column sums of squares. -/
theorem out_A_2 (c : Dev nD) (i : grid0.Coords) (a2 : Memref sig .tc .vmem S512x1024 .f32) (h2 : a2.IsWhole)
    (a3 : Memref sig .tc .vmem S1x1024 .f32) (h3 : a3.IsWhole) (a4 : Memref sig .tc .vmem S1x1024 .f32) (h4 : a4.IsWhole)
    (hc : cond0_0 i) (x : Vec F S512x1024 .f32) :
    out0_A_2 c i a2 h2 a3 h3 a4 h4 hc x = k0_pay4 x (k0_pay2 (F := F)) := by
  unfold out0_A_2
  rw [View.read_writes_eq_canon _ _ _ (cover0_A_2 c i a2 h2 a3 h3 a4 h4 hc x)]
  unfold kernelRun0_A
  dsimp only
  sl_unfold_words
  rw [View.canon_cons_unit_zero (S := S1x1024) hz, View.readCov_unit_zero (S := S1x1024) _ hz]
  simp only [View.readAt_eq_ld, h2.read_unread, View.ld_unit_zero (S := S512x1024) hz]

end Pieces

/-! ## The payloads read at a column, over the extended reals -/

section Values

/-- The reduction over the tile's row axis, read at column `k`: the sum of the column's 512 entries. -/
theorem colred_apply (x : FVec Ideal S512x1024 .f32) (hφ : FKind.Formats .f32)
    (hacc : (0x00000000#32 : BitVec 32) = FKind.add.neutral .f32 hφ) (k : Fin 1024) :
    multiReduction .add [0] S1024 x 0x00000000#32 reduces_S512x1024_S1024 hφ hacc (ix1 k) = ∑ r : Fin 512, x (ix2 r k) :=
  (Ideal.multiReduction_add_single x 0x00000000#32 reduces_S512x1024_S1024 hφ hacc (ix1 k)).trans
    (Finset.sum_congr rfl fun r _ => congrArg x (funext fun a => match a with | ⟨0, _⟩ => rfl | ⟨1, _⟩ => rfl))

/-- The zero row is the extended real `0` at every column. -/
theorem pay1_apply (j : S1x1024.Idx) : (k0_pay1 (F := Ideal) : FVec Ideal S1x1024 .f32) j = 0 :=
  Ideal.ofBits_zero_f32
theorem pay2_apply (j : S1x1024.Idx) : (k0_pay2 (F := Ideal) : FVec Ideal S1x1024 .f32) j = 0 :=
  Ideal.ofBits_zero_f32

/-- The new running sum at column `k`: the old one plus the tile's column sum. -/
theorem pay3_apply (x : FVec Ideal S512x1024 .f32) (a : FVec Ideal S1x1024 .f32) (k : Fin 1024) :
    k0_pay3 (F := Ideal) x a (ix2 (0 : Fin 1) k) = a (ix2 (0 : Fin 1) k) + ∑ r : Fin 512, x (ix2 r k) := by
  show (addf (shapeCast S1x1024 a shapeCasts_S1x1024_S1x1024)
    (shapeCast S1x1024 (multiReduction .add [0] S1024 x 0x00000000#32 reduces_S512x1024_S1024 (.inl rfl) rfl) shapeCasts_S1024_S1x1024)
      : FVec Ideal S1x1024 .f32) (ix2 (0 : Fin 1) k) = _
  refine (addf_apply _ _ _).trans ?_
  refine congrArg₂ (· + ·) (congrFun (shapeCast_self a _) _) ?_
  refine (shapeCast_a_1a_apply _ _ (0 : Fin 1) k).trans ?_
  exact colred_apply x _ _ k

/-- The new running sum of squares at column `k`: the old one plus the tile's column sum of squares. -/
theorem pay4_apply (x : FVec Ideal S512x1024 .f32) (a : FVec Ideal S1x1024 .f32) (k : Fin 1024) :
    k0_pay4 (F := Ideal) x a (ix2 (0 : Fin 1) k) = a (ix2 (0 : Fin 1) k) + ∑ r : Fin 512, x (ix2 r k) * x (ix2 r k) := by
  show (addf (shapeCast S1x1024 a shapeCasts_S1x1024_S1x1024)
    (shapeCast S1x1024 (multiReduction .add [0] S1024 (mulf x x) 0x00000000#32 reduces_S512x1024_S1024 (.inl rfl) rfl) shapeCasts_S1024_S1x1024)
      : FVec Ideal S1x1024 .f32) (ix2 (0 : Fin 1) k) = _
  refine (addf_apply _ _ _).trans ?_
  refine congrArg₂ (· + ·) (congrFun (shapeCast_self a _) _) ?_
  refine (shapeCast_a_1a_apply _ _ (0 : Fin 1) k).trans ?_
  refine (colred_apply (mulf x x) _ _ k).trans ?_
  exact Finset.sum_congr rfl fun r _ => mulf_apply x x _

end Values

/-! ## The tile read through the window, and the running totals point by point -/

section Acc

/-- A tile whose row `r` is row `512 · i + r` of a column has that column's tile sum. -/
theorem tile_sum_of (x : FVec Ideal S512x1024 .f32) (f : Fin 8192 → EReal) (i : Fin 16) (k : Fin 1024)
    (hx : ∀ r : Fin 512, x (ix2 r k) = f (Cert.BN.rowOf i r)) :
    ∑ r : Fin 512, x (ix2 r k) = Cert.BN.tileSum f i :=
  Finset.sum_congr rfl fun r _ => hx r

/-- And the sum of its squares is the tile sum of the column's squares. -/
theorem tile_sumsq_of (x : FVec Ideal S512x1024 .f32) (f : Fin 8192 → EReal) (i : Fin 16) (k : Fin 1024)
    (hx : ∀ r : Fin 512, x (ix2 r k) = f (Cert.BN.rowOf i r)) :
    ∑ r : Fin 512, x (ix2 r k) * x (ix2 r k) = Cert.BN.tileSum (fun r => f r * f r) i :=
  Finset.sum_congr rfl fun r _ => by rw [hx r]

variable (V : (c : Dev nD) → (b : Ref sig .tc) → Buf (Elt Ideal) ((c : Thread nD τ).loc b))

/-- At point `t` the input window sits at block `(t, 0)` of the array. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Row `r` of the tile at point `t` is row `512 · t + r` of the array. -/
theorem iblk_apply (c : Dev nD) (t : Fin cfg0.N) (ht : t.val < 16) (r : Fin 512) (k : Fin 1024) :
    (iblk0 (F := Ideal) V c 0 t : S512x1024.Idx → EReal) (ix2 r k)
      = Cert.BN.column (V c main_arg0 : S8192x1024.Idx → EReal) k (Cert.BN.rowOf ⟨t.val, ht⟩ r) := by
  have hi := idx0 t
  unfold iblk0
  rw [View.read_apply]
  show (V c main_arg0 : S8192x1024.Idx → EReal) _ = (V c main_arg0 : S8192x1024.Idx → EReal) _
  refine congrArg (V c main_arg0 : S8192x1024.Idx → EReal) ?_
  funext a
  apply Fin.ext
  match a with
  | ⟨0, _⟩ => show win0_0.index t 0 * 512 + 1 * r.val = 512 * t.val + r.val; rw [hi.1]; omega
  | ⟨1, _⟩ => show win0_0.index t 1 * 1024 + 1 * k.val = k.val; rw [hi.2]; omega

/-- After point `n` the first output's buffer holds, at column `k`, the running total of the column's tile sums. -/
theorem acc_sum (c : Dev nD) (k : Fin 1024) : ∀ (n : ℕ) (h : n < cfg0.N),
    ((outsAt0 (F := Ideal) V c n h).1 : S1x1024.Idx → EReal) (ix2 (0 : Fin 1) k)
      = Cert.BN.accSum (Cert.BN.column (V c main_arg0 : S8192x1024.Idx → EReal) k) n (lt_of_lt_of_eq h N_0)
  | 0, h => by
    rw [outsAt0_A V c ⟨0, h⟩ rfl]
    dsimp only
    rw [out_A_1]
    refine (pay3_apply _ _ k).trans ?_
    rw [pay1_apply, zero_add]
    exact tile_sum_of (iblk0 (F := Ideal) V c 0 ⟨0, h⟩) _ ⟨0, by norm_num⟩ k fun r => iblk_apply V c ⟨0, h⟩ (by norm_num) r k
  | n + 1, h => by
    have hN : n + 1 < 16 := lt_of_lt_of_eq h N_0
    have hB : ¬(⟨n + 1, h⟩ : Fin cfg0.N).val % 16 = 0 := by dsimp only; omega
    rw [outsAt0_B V c ⟨n + 1, h⟩ hB]
    dsimp only
    rw [out_B_1]
    refine (pay3_apply _ _ k).trans ?_
    show _ = Cert.BN.accSum _ n _ + Cert.BN.tileSum _ ⟨n + 1, hN⟩
    exact congrArg₂ (· + ·) (acc_sum c k n (Nat.lt_of_succ_lt h))
      (tile_sum_of (iblk0 (F := Ideal) V c 0 ⟨n + 1, h⟩) _ ⟨n + 1, hN⟩ k fun r => iblk_apply V c ⟨n + 1, h⟩ hN r k)

/-- After point `n` the second output's buffer holds, at column `k`, the running total of the column's tile sums of squares. -/
theorem acc_sumsq (c : Dev nD) (k : Fin 1024) : ∀ (n : ℕ) (h : n < cfg0.N),
    ((outsAt0 (F := Ideal) V c n h).2 : S1x1024.Idx → EReal) (ix2 (0 : Fin 1) k)
      = Cert.BN.accSum (fun r => Cert.BN.column (V c main_arg0 : S8192x1024.Idx → EReal) k r * Cert.BN.column (V c main_arg0 : S8192x1024.Idx → EReal) k r) n (lt_of_lt_of_eq h N_0)
  | 0, h => by
    rw [outsAt0_A V c ⟨0, h⟩ rfl]
    dsimp only
    rw [out_A_2]
    refine (pay4_apply _ _ k).trans ?_
    rw [pay2_apply, zero_add]
    exact tile_sumsq_of (iblk0 (F := Ideal) V c 0 ⟨0, h⟩) _ ⟨0, by norm_num⟩ k fun r => iblk_apply V c ⟨0, h⟩ (by norm_num) r k
  | n + 1, h => by
    have hN : n + 1 < 16 := lt_of_lt_of_eq h N_0
    have hB : ¬(⟨n + 1, h⟩ : Fin cfg0.N).val % 16 = 0 := by dsimp only; omega
    rw [outsAt0_B V c ⟨n + 1, h⟩ hB]
    dsimp only
    rw [out_B_2]
    refine (pay4_apply _ _ k).trans ?_
    show _ = Cert.BN.accSum _ n _ + Cert.BN.tileSum _ ⟨n + 1, hN⟩
    exact congrArg₂ (· + ·) (acc_sumsq c k n (Nat.lt_of_succ_lt h))
      (tile_sumsq_of (iblk0 (F := Ideal) V c 0 ⟨n + 1, h⟩) _ ⟨n + 1, hN⟩ k fun r => iblk_apply V c ⟨n + 1, h⟩ hN r k)

end Acc

/-! ## The arrays after the region: what the last point wrote back -/

section Final

variable (V : (c : Dev nD) → (b : Ref sig .tc) → Buf (Elt Ideal) ((c : Thread nD τ).loc b))

theorem h15 : 15 < cfg0.N := by rw [show cfg0.N = 16 from N_0]; decide

/-- What the last point leaves in the first output's buffer, as contents of its array (the one block is the array). -/
abbrev res1 (c : Dev nD) : Buf (Elt Ideal) ((c : Thread nD τ).loc main_v2_0) := (outsAt0 (F := Ideal) V c 15 h15).1
/-- What the last point leaves in the second output's buffer, as contents of its array. -/
abbrev res2 (c : Dev nD) : Buf (Elt Ideal) ((c : Thread nD τ).loc main_v2_1) := (outsAt0 (F := Ideal) V c 15 h15).2

/-- The only write-back of the first output is at the last point, and it writes that buffer: block (0, 0) of a
    [1, 1024] array read at zero offsets is the array. -/
theorem flushed_eq_1 (c : Dev nD) (t : Fin cfg0.N) (hf : (cfg0.win 1).flush t = true) :
    (dat0 (F := Ideal) V c).flushed 1 t = ((cfg0.win 1).blk t).view.read (Elt Ideal) (res1 V c) := by
  have hN : cfg0.N = 16 := N_0
  have h3 : t.val = 15 := by have := (flush0_1 t).mp hf; have := t.isLt; omega
  obtain rfl : t = t0_15 := Fin.ext h3
  show (cfg0.win 1).cut (grid0.coords t0_15) ((dat0 (F := Ideal) V c).after 1 t0_15) = _
  rw [after0_1]
  have hz' : (fun a => win0_1.index t0_15 a * main_v2_0.ty.shape.size a) = fun _ => 0 := funext fun a => by fin_cases a <;> decide
  exact (Memref.read_access_unit_zero (Elt Ideal) main_v2_0 hz' (fun a => by rw [congrFun hz' a]; simp) (res1 V c)).symm

theorem flushed_eq_2 (c : Dev nD) (t : Fin cfg0.N) (hf : (cfg0.win 2).flush t = true) :
    (dat0 (F := Ideal) V c).flushed 2 t = ((cfg0.win 2).blk t).view.read (Elt Ideal) (res2 V c) := by
  have hN : cfg0.N = 16 := N_0
  have h3 : t.val = 15 := by have := (flush0_2 t).mp hf; have := t.isLt; omega
  obtain rfl : t = t0_15 := Fin.ext h3
  show (cfg0.win 2).cut (grid0.coords t0_15) ((dat0 (F := Ideal) V c).after 2 t0_15) = _
  rw [after0_2]
  have hz' : (fun a => win0_2.index t0_15 a * main_v2_1.ty.shape.size a) = fun _ => 0 := funext fun a => by fin_cases a <;> decide
  exact (Memref.read_access_unit_zero (Elt Ideal) main_v2_1 hz' (fun a => by rw [congrFun hz' a]; simp) (res2 V c)).symm

/-- So the first output array ends holding what the last point left. -/
theorem final_1 (c : Dev nD) : (dat0 (F := Ideal) V c).arrAt 1 cfg0.N = res1 V c :=
  (dat0 (F := Ideal) V c).arrAt_eq_of_cover 1 (res1 V c) (flushed_eq_1 V c) fun i =>
    ⟨t0_15, (flush0_1 t0_15).mpr rfl, by
      show i ∈ ((View.whole main_v2_0).slice (win0_1.rect t0_15)).set
      rw [View.set_slice_whole, Rect.mem_set_unit]
      intro a
      have h0 : (i 0 : Nat) < 1 := (i 0).isLt
      have h1 : (i 1 : Nat) < 1024 := (i 1).isLt
      match a with
      | ⟨0, _⟩ => show win0_1.index t0_15 0 * win0_1.size 0 ≤ (i 0 : Nat) ∧ (i 0 : Nat) < win0_1.index t0_15 0 * win0_1.size 0 + win0_1.xsize (grid0.coords t0_15) 0
                  rw [show win0_1.index t0_15 0 * win0_1.size 0 = 0 from by decide +kernel, show win0_1.xsize (grid0.coords t0_15) 0 = 1 from by decide +kernel]; omega
      | ⟨1, _⟩ => show win0_1.index t0_15 1 * win0_1.size 1 ≤ (i 1 : Nat) ∧ (i 1 : Nat) < win0_1.index t0_15 1 * win0_1.size 1 + win0_1.xsize (grid0.coords t0_15) 1
                  rw [show win0_1.index t0_15 1 * win0_1.size 1 = 0 from by decide +kernel, show win0_1.xsize (grid0.coords t0_15) 1 = 1024 from by decide +kernel]; omega⟩

/-- And the second output array likewise. -/
theorem final_2 (c : Dev nD) : (dat0 (F := Ideal) V c).arrAt 2 cfg0.N = res2 V c :=
  (dat0 (F := Ideal) V c).arrAt_eq_of_cover 2 (res2 V c) (flushed_eq_2 V c) fun i =>
    ⟨t0_15, (flush0_2 t0_15).mpr rfl, by
      show i ∈ ((View.whole main_v2_1).slice (win0_2.rect t0_15)).set
      rw [View.set_slice_whole, Rect.mem_set_unit]
      intro a
      have h0 : (i 0 : Nat) < 1 := (i 0).isLt
      have h1 : (i 1 : Nat) < 1024 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 1 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 1024 from by decide +kernel]; omega⟩

end Final

end Stats

open Stats

/-! ## The two statistics arrays after the region -/

section Statistics

variable (V : (c : Dev nD) → (b : Ref sig .tc) → Buf (Elt Ideal) ((c : Thread nD τ).loc b))

/-- After the statistics region the first output holds, at column `k`, the column's total as accumulated over its sixteen tiles. -/
theorem stats_sum (c : Dev nD) (k : Fin 1024) :
    ((dat0 (F := Ideal) V c).arrAt 1 cfg0.N : S1x1024.Idx → EReal) (ix2 (0 : Fin 1) k)
      = Cert.BN.colSum (Cert.BN.column (V c main_arg0 : S8192x1024.Idx → EReal) k) := by
  rw [final_1 V c]
  exact acc_sum V c k 15 h15

/-- And the second output holds the total of the column's squares, accumulated the same way. -/
theorem stats_sumsq (c : Dev nD) (k : Fin 1024) :
    ((dat0 (F := Ideal) V c).arrAt 2 cfg0.N : S1x1024.Idx → EReal) (ix2 (0 : Fin 1) k)
      = Cert.BN.colSum (fun r => Cert.BN.column (V c main_arg0 : S8192x1024.Idx → EReal) k r * Cert.BN.column (V c main_arg0 : S8192x1024.Idx → EReal) k r) := by
  rw [final_2 V c]
  exact acc_sumsq V c k 15 h15

end Statistics

end Cert.ReferenceIdeal.RefValue
end
-- ==== Proof.RefRun.lean ====
/-
  The reference program's run, assembled.

  The program reshapes the gain and the offset to one row each, then runs two regions. The first leaves, per column,
  the total of x and the total of its squares, each accumulated over sixteen tiles of 512 rows. The second finds x as
  launched (nothing writes it), those two rows of totals, and the reshaped gain and offset (entry `(0, k)` of a
  reshaped vector is its entry `k`), and writes `x · scale + shift`. Substituting what the second region finds into
  its value gives the scale-and-shift form of the specification at every index.
-/
import proofs.«101858_g2000105174111989_pallasbulk_1044_5_alg».proof.Proof.Gen.ReferenceIdeal.Frame
import proofs.«101858_g2000105174111989_pallasbulk_1044_5_alg».proof.Proof.Spec
import Idealize.ShloMosaic.Lib.Pipeline.Value
import Idealize.ShloMosaic.Lib.ValueIdx
import Idealize.ShloMosaic.Lib.ValueLayout
import proofs.«101858_g2000105174111989_pallasbulk_1044_5_alg».proof.Proof.RefApply
import proofs.«101858_g2000105174111989_pallasbulk_1044_5_alg».proof.Proof.RefRunDat
import proofs.«101858_g2000105174111989_pallasbulk_1044_5_alg».proof.Proof.RefStats
import Idealize.ShloMosaic.Lib.Tactic
set_option maxRecDepth 16384

noncomputable section

namespace Cert.ReferenceIdeal.RefValue

open Cert.ReferenceIdeal Cert.ReferenceIdeal.Gen
open Idealize.ShloMosaic Idealize.ShloMosaic.TcCoe Idealize.SL.Sem Idealize.ShloMosaic.ValueIdx
open Idealize.ShloMosaic.Pipeline (Dat)

open Cert.ReferenceIdeal.RefValue.Apply

variable (m : (ℓ : Loc nD τ sig) → Buf (Elt Ideal) ℓ) (ρ : Dev nD → PrngReg)

namespace Apply

/-- No host operation writes x, so the first region finds it as launched. -/
theorem V1_x (c : Dev nD) : V1 m ρ c main_arg0 = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.reshape_writes, Finset.mem_singleton]
          repeat' apply And.intro
          all_goals exact StableHlo.devRef_ne_of_ne (by decide)))
    _ = m ((c : Thread nD τ).loc main_arg0) := rfl

/-- The first region only reads x, so the second finds it as launched too. -/
theorem V2_x (c : Dev nD) : V2 m ρ c main_arg0 = m ((c : Thread nD τ).loc main_arg0) :=
  ((W2_arr m ρ c 0).trans (((dat0 (V1 m ρ) c).arrAt_in 0 rfl _).trans (A_eq0 (V1 m ρ) c 0))).trans (V1_x m ρ c)

/-- A vector of 1024 entries reshaped to one row: entry `(0, k)` is entry `k`. -/
theorem reshape_row (g : S1024.Idx → EReal) (k : Fin 1024) :
    shapeCast S1x1024 g shapeCasts_S1024_S1x1024 (ix2 (0 : Fin 1) k) = g (ix1 k) :=
  shapeCast_apply g _ (ix2 (0 : Fin 1) k) (ix1 k) (by
    rw [Shape.rowMajor_val_one, Shape.rowMajor_val_two]
    show k.val = 0 * 1024 + k.val
    omega)

/-- The one-row gain the second region finds is the launch gain, reshaped by the host before the first region. -/
theorem V2_g (c : Dev nD) (k : Fin 1024) :
    (V2 m ρ c main_v0 : S1x1024.Idx → EReal) (ix2 (0 : Fin 1) k) = (m ((c : Thread nD τ).loc main_arg1) : S1024.Idx → EReal) (ix1 k) := by
  have e : (V1 m ρ c main_v0 : S1x1024.Idx → EReal)
      = shapeCast S1x1024 (m ((c : Thread nD τ).loc main_arg1) : S1024.Idx → EReal) shapeCasts_S1024_S1x1024 := by
    dsimp only [V1, W1, hostOps0]
    after_results
    rfl
  rw [show (V2 m ρ c main_v0 : S1x1024.Idx → EReal) = (V1 m ρ c main_v0 : S1x1024.Idx → EReal) from W2_of_ne m ρ c main_v0 (by decide), e]
  exact reshape_row _ k

/-- The one-row offset likewise. -/
theorem V2_b (c : Dev nD) (k : Fin 1024) :
    (V2 m ρ c main_v1 : S1x1024.Idx → EReal) (ix2 (0 : Fin 1) k) = (m ((c : Thread nD τ).loc main_arg2) : S1024.Idx → EReal) (ix1 k) := by
  have e : (V1 m ρ c main_v1 : S1x1024.Idx → EReal)
      = shapeCast S1x1024 (m ((c : Thread nD τ).loc main_arg2) : S1024.Idx → EReal) shapeCasts_S1024_S1x1024 := by
    dsimp only [V1, W1, hostOps0]
    after_results
    rfl
  rw [show (V2 m ρ c main_v1 : S1x1024.Idx → EReal) = (V1 m ρ c main_v1 : S1x1024.Idx → EReal) from W2_of_ne m ρ c main_v1 (by decide), e]
  exact reshape_row _ k

theorem V2_s (c : Dev nD) (k : Fin 1024) :
    (V2 m ρ c main_v2_0 : S1x1024.Idx → EReal) (ix2 (0 : Fin 1) k)
      = Cert.BN.colSum (Cert.BN.column (m ((c : Thread nD τ).loc main_arg0) : S8192x1024.Idx → EReal) k) := by
  rw [show (V2 m ρ c main_v2_0 : S1x1024.Idx → EReal) = ((dat0 (F := Ideal) (V1 m ρ) c).arrAt 1 cfg0.N : S1x1024.Idx → EReal) from W2_arr m ρ c 1,
    stats_sum (V1 m ρ) c k, V1_x m ρ c]

theorem V2_q (c : Dev nD) (k : Fin 1024) :
    (V2 m ρ c main_v2_1 : S1x1024.Idx → EReal) (ix2 (0 : Fin 1) k)
      = Cert.BN.colSum (fun r => Cert.BN.column (m ((c : Thread nD τ).loc main_arg0) : S8192x1024.Idx → EReal) k r * Cert.BN.column (m ((c : Thread nD τ).loc main_arg0) : S8192x1024.Idx → EReal) k r) := by
  rw [show (V2 m ρ c main_v2_1 : S1x1024.Idx → EReal) = ((dat0 (F := Ideal) (V1 m ρ) c).arrAt 2 cfg0.N : S1x1024.Idx → EReal) from W2_arr m ρ c 2,
    stats_sumsq (V1 m ρ) c k, V1_x m ρ c]

theorem result (c : Dev nD) :
    ((dat1 (V2 m ρ) c).arrAt 5 cfg1.N : S8192x1024.Idx → EReal)
      = Cert.BN.affineArr (m ((c : Thread nD τ).loc main_arg0) : S8192x1024.Idx → EReal) (m ((c : Thread nD τ).loc main_arg1) : S1024.Idx → EReal) (m ((c : Thread nD τ).loc main_arg2) : S1024.Idx → EReal) := by
  rw [apply_final (V2 m ρ) c]
  funext j
  obtain ⟨r, k, rfl⟩ : ∃ (r : Fin 8192) (k : Fin 1024), j = ix2 r k := ⟨j 0, j 1, eq_ix2 j⟩
  show applyElt ((V2 m ρ c main_arg0 : S8192x1024.Idx → EReal) (ix2 r k)) ((V2 m ρ c main_v2_0 : S1x1024.Idx → EReal) (ix2 (0 : Fin 1) k))
      ((V2 m ρ c main_v2_1 : S1x1024.Idx → EReal) (ix2 (0 : Fin 1) k)) ((V2 m ρ c main_v0 : S1x1024.Idx → EReal) (ix2 (0 : Fin 1) k))
      ((V2 m ρ c main_v1 : S1x1024.Idx → EReal) (ix2 (0 : Fin 1) k)) = _
  rw [V2_x m ρ c, V2_s m ρ c k, V2_q m ρ c k, V2_g m ρ c k, V2_b m ρ c k]
  rfl

end Apply

/-- The run of the reference program with its result read: every weakly fair execution from a memory with zero
    counters terminates; the result array holds, at every index, the scale-and-shift form of batch normalisation of the
    launch arrays — x times `rstd · gain` plus `offset − mean · rstd · gain`, the column's mean and variance from its
    totals accumulated tile by tile —; and the three argument arrays are as launched. -/
theorem run : θ_run (defs (F := Ideal)) (onTc (τ := τ) (main (F := Ideal))) ⟨m, fun _ => 0, ρ⟩ (fun r => ∀ c : Dev nD,
      r.2.mem ((c.tc : Thread nD τ).loc main_v3)
          = Cert.BN.affineArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun r h c => ⟨(h c).1.trans (Apply.result m ρ c), (h c).2⟩) (run_dat m ρ)

end Cert.ReferenceIdeal.RefValue

end
-- ==== Proof.Algebra.lean ====
/-
  The two ways of writing a batch-normalised column agree on real inputs.

  Every quantity entering the two formulas is shown to be a real number: a finite sum of reals is real, so each
  tile sum, each running total and hence the column total is real; the two constant words are reals, the second one
  positive; the mean and the clamped variance are then reals, the variance non-negative, so that the variance plus
  the positive constant is a positive real whose reciprocal square root is again a real.  With everything real the
  identity  (x − m)·(g·r) + b = x·(r·g) + (b − m·(r·g))  is an identity of the field of real numbers.
-/
import proofs.«101858_g2000105174111989_pallasbulk_1044_5_alg».proof.Proof.Spec

noncomputable section

open scoped BigOperators

namespace Cert.BN

open Idealize.ShloMosaic Idealize.ShloMosaic.ValueIdx

/-- A finite sum of real numbers, read in the extended reals, is a real number. -/
theorem sum_real {ι : Type} (s : Finset ι) (f : ι → EReal) (hf : ∀ i, ∃ a : ℝ, f i = (a : EReal)) :
    ∃ a : ℝ, ∑ i ∈ s, f i = (a : EReal) := by
  classical
  refine Finset.induction_on s ⟨0, by simp⟩ ?_
  intro i s hi ih
  obtain ⟨a, ha⟩ := ih
  obtain ⟨b, hb⟩ := hf i
  exact ⟨b + a, by rw [Finset.sum_insert hi, ha, hb, EReal.coe_add]⟩

/-- Each tile sum of a real column is real. -/
theorem tileSum_real (f : Fin 8192 → EReal) (hf : ∀ r, ∃ a : ℝ, f r = (a : EReal)) (i : Fin 16) :
    ∃ a : ℝ, tileSum f i = (a : EReal) :=
  sum_real _ _ (fun r => hf (rowOf i r))

/-- Each running total of a real column is real. -/
theorem accSum_real (f : Fin 8192 → EReal) (hf : ∀ r, ∃ a : ℝ, f r = (a : EReal)) :
    ∀ (n : ℕ) (h : n < 16), ∃ a : ℝ, accSum f n h = (a : EReal)
  | 0, h => tileSum_real f hf ⟨0, h⟩
  | n + 1, h => by
    obtain ⟨a, ha⟩ := accSum_real f hf n (Nat.lt_of_succ_lt h)
    obtain ⟨b, hb⟩ := tileSum_real f hf ⟨n + 1, h⟩
    exact ⟨a + b, by rw [accSum, ha, hb, EReal.coe_add]⟩

/-- The total of a real column is real. -/
theorem colSum_real (f : Fin 8192 → EReal) (hf : ∀ r, ∃ a : ℝ, f r = (a : EReal)) :
    ∃ a : ℝ, colSum f = (a : EReal) :=
  accSum_real f hf 15 (by norm_num)

/-- The word of 1/8192 is that real number. -/
theorem wInv_real : ∃ a : ℝ, wInv = (a : EReal) := by
  refine ⟨1 / 8192, ?_⟩
  simp [wInv, Ideal.ofBits, Ideal.ieee, -EReal.coe_mul]
  norm_num

/-- The word of 1e-5 is a positive real number. -/
theorem wEps_real : ∃ e : ℝ, 0 < e ∧ wEps = (e : EReal) := by
  refine ⟨(10995116 : ℝ) * (2 : ℝ) ^ (-40 : ℤ), by positivity, ?_⟩
  simp [wEps, Ideal.ofBits, Ideal.ieee, -EReal.coe_mul]

/-- The mean of a real column is real. -/
theorem mean_real (f : Fin 8192 → EReal) (hf : ∀ r, ∃ a : ℝ, f r = (a : EReal)) :
    ∃ a : ℝ, mean f = (a : EReal) := by
  obtain ⟨s, hs⟩ := colSum_real f hf
  obtain ⟨w, hw⟩ := wInv_real
  exact ⟨s * w, by rw [mean, hs, hw, EReal.coe_mul]⟩

/-- The clamped variance of a real column is a non-negative real. -/
theorem var_real (f : Fin 8192 → EReal) (hf : ∀ r, ∃ a : ℝ, f r = (a : EReal)) :
    ∃ v : ℝ, 0 ≤ v ∧ var f = (v : EReal) := by
  have hsq : ∀ r, ∃ a : ℝ, f r * f r = (a : EReal) := fun r => by
    obtain ⟨a, ha⟩ := hf r
    exact ⟨a * a, by rw [ha, EReal.coe_mul]⟩
  obtain ⟨q, hq⟩ := colSum_real (fun r => f r * f r) hsq
  obtain ⟨w, hw⟩ := wInv_real
  obtain ⟨m, hm⟩ := mean_real f hf
  refine ⟨max (q * w - m * m) 0, le_max_right _ _, ?_⟩
  rw [var, hq, hw, hm]
  norm_cast

/-- The reciprocal standard deviation of a real column is real. -/
theorem rstd_real (f : Fin 8192 → EReal) (hf : ∀ r, ∃ a : ℝ, f r = (a : EReal)) :
    ∃ t : ℝ, rstd f = (t : EReal) := by
  obtain ⟨v, hv0, hv⟩ := var_real f hf
  obtain ⟨e, he0, he⟩ := wEps_real
  have hpos : 0 < v + e := by linarith
  refine ⟨(Real.sqrt (v + e))⁻¹, ?_⟩
  rw [rstd, hv, he, ← EReal.coe_add, Ideal.rsqrt_coe, if_neg (not_lt.mpr hpos.le), if_neg hpos.ne']

/-- On a real column with real gain and offset the centred form and the scale-and-shift form agree. -/
theorem centred_eq_affine (f : Fin 8192 → EReal) (g b : EReal) (hf : ∀ r, ∃ a : ℝ, f r = (a : EReal))
    (hg : ∃ a : ℝ, g = (a : EReal)) (hb : ∃ a : ℝ, b = (a : EReal)) (r : Fin 8192) :
    centred f g b r = affine f g b r := by
  obtain ⟨x, hx⟩ := hf r
  obtain ⟨m, hm⟩ := mean_real f hf
  obtain ⟨t, ht⟩ := rstd_real f hf
  obtain ⟨g', rfl⟩ := hg
  obtain ⟨b', rfl⟩ := hb
  rw [centred, affine, hx, hm, ht]
  norm_cast
  ring

/-- The two forms agree on the whole array when every input entry is a real number. -/
theorem centredArr_eq_affineArr (X : SX.Idx → EReal) (gam bet : SC.Idx → EReal)
    (hX : ∀ j, ∃ a : ℝ, X j = (a : EReal)) (hg : ∀ j, ∃ a : ℝ, gam j = (a : EReal))
    (hb : ∀ j, ∃ a : ℝ, bet j = (a : EReal)) :
    centredArr X gam bet = affineArr X gam bet := by
  funext j
  exact centred_eq_affine _ _ _ (fun r => hX _) (hg _) (hb _) _

end Cert.BN

end
-- ==== Proof.Finite.lean ====
/-
  From the precondition "every entry of the three input arrays has absolute value below +∞" to "every entry of
  the three input arrays is a real number".

  The precondition is a conjunction of three conjunctions-over-all-entries, each printed as a reduction by "and"
  from the constant one, the three results joined by "and".  The whole is one if and only if each part is one, a
  reduction by "and" that is one met only ones, and an entry x with max x (−x) < +∞ is neither +∞ nor −∞, hence
  a real number.
-/
import proofs.«101858_g2000105174111989_pallasbulk_1044_5_alg».proof.Defs
import proofs.«101858_g2000105174111989_pallasbulk_1044_5_alg».proof.Proof.Gen.Pre_finite_inputs
import Idealize.ShloMosaic.Lib.ReduceAll
import Idealize.ShloMosaic.Lib.ValueIdx

noncomputable section

namespace Cert.Proof

open Idealize.ShloMosaic Idealize.SL.Sem

/-- The shape of rank zero has exactly one index. -/
instance subsingleton_scalar_idx : Subsingleton Cert.Pre_finite_inputs.S_.Idx :=
  ⟨fun a b => funext fun d => d.elim0⟩

/-- An extended real whose absolute value compares below the word of +∞ is a real number. -/
theorem real_of_abs_lt (x : Ideal .f32)
    (h : FloatOps.cmpf (F := Ideal) .olt (FloatOps.hostAbsf (F := Ideal) x)
      (FloatOps.ofBits (F := Ideal) .f32 0x7F800000#32) = 1#1) :
    ∃ a : ℝ, x = (a : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe a => exact ⟨a, rfl⟩
  | top => simp at h

/-- Under the precondition every entry of the three input arrays is a real number. -/
theorem real_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ j, ∃ a : ℝ, m ((c.tc : Thread Cert.KernelIdeal.nD Cert.KernelIdeal.τ).loc Cert.KernelIdeal.main_arg0) j = (a : EReal))
    ∧ (∀ j, ∃ a : ℝ, m ((c.tc : Thread Cert.KernelIdeal.nD Cert.KernelIdeal.τ).loc Cert.KernelIdeal.main_arg1) j = (a : EReal))
    ∧ (∀ j, ∃ a : ℝ, m ((c.tc : Thread Cert.KernelIdeal.nD Cert.KernelIdeal.τ).loc Cert.KernelIdeal.main_arg2) j = (a : EReal)) := by
  have e := congrFun (h c) ValueIdx.ix0
  dsimp only [Cert.Pre_finite_inputs.fn] at e
  have e' : IntOp.andi (IntOp.andi _ _) _ = 1#1 := e
  obtain ⟨e01, e2⟩ := IntOp.andi_eq_one.1 e'
  obtain ⟨e0, e1⟩ := IntOp.andi_eq_one.1 e01
  exact ⟨fun j => real_of_abs_lt _ (Host.reduce_andi_all _ _ _ _ _ e0 j),
    fun j => real_of_abs_lt _ (Host.reduce_andi_all _ _ _ _ _ e1 j),
    fun j => real_of_abs_lt _ (Host.reduce_andi_all _ _ _ _ _ e2 j)⟩

end Cert.Proof

end
-- ==== Proof.lean ====
/-
  Training-mode batch normalisation of x : f32[8192, 1024] per column, with gain gamma and offset beta.

  The kernel streams each 128-column strip in sixteen tiles of 512 rows: every tile is stashed in a strip buffer
  while its column sums and sums of squares are added to two running totals, and at the strip's last tile the
  stashed strip is normalised, `(x − m) · (g · r) + b`, into the output block.  The reference takes the same
  totals in the same sixteen tiles in a first pass and applies `x · (r · g) + (b − m · (r · g))` in a second.
  On the extended reals the totals are the same sums, and the two output forms agree because every input entry
  is a real number (the precondition), so the mean, the clamped variance and the reciprocal standard deviation
  are real and the identity is one of the field ℝ.

  The three frames: the word-level kernel's and the idealized kernel's are the same hand proof at the two
  instances (the body run case by case, the strip buffer and the totals tracked point by point); the reference's
  is its generated frame.  The ideal pass rewrote nothing, so the idealization conjunct is trivial.
-/
import proofs.«101858_g2000105174111989_pallasbulk_1044_5_alg».proof.Defs
import proofs.«101858_g2000105174111989_pallasbulk_1044_5_alg».proof.Proof.Gen.Kernel
import proofs.«101858_g2000105174111989_pallasbulk_1044_5_alg».proof.Proof.Gen.KernelIdeal
import proofs.«101858_g2000105174111989_pallasbulk_1044_5_alg».proof.Proof.Gen.ReferenceIdeal
import proofs.«101858_g2000105174111989_pallasbulk_1044_5_alg».proof.Proof.Gen.ReferenceIdeal.Frame
import proofs.«101858_g2000105174111989_pallasbulk_1044_5_alg».proof.Proof.Gen.Pre_finite_inputs
import proofs.«101858_g2000105174111989_pallasbulk_1044_5_alg».proof.Proof.K.Body
import proofs.«101858_g2000105174111989_pallasbulk_1044_5_alg».proof.Proof.KI.Run
import proofs.«101858_g2000105174111989_pallasbulk_1044_5_alg».proof.Proof.RefRun
import proofs.«101858_g2000105174111989_pallasbulk_1044_5_alg».proof.Proof.Algebra
import proofs.«101858_g2000105174111989_pallasbulk_1044_5_alg».proof.Proof.Finite

noncomputable section

namespace Cert.Proof

open Idealize.ShloMosaic Idealize.SL.Sem

/-- The word-level kernel runs and leaves its arguments unchanged. -/
theorem frame_k : Cert.frame_Kernel := fun m ρ _ => Cert.Kernel.Hand.frame m ρ

/-- The idealized kernel runs and leaves its arguments unchanged. -/
theorem frame_ki : Cert.frame_KernelIdeal := fun m ρ _ => Cert.KernelIdeal.Hand.frame m ρ

/-- The reference runs and leaves its arguments unchanged. -/
theorem frame_ri : Cert.frame_ReferenceIdeal := fun m ρ _ => Cert.ReferenceIdeal.Gen.frame m ρ

/-- Both programs end with the centred form of every column: the kernel writes it, and the reference's
    scale-and-shift form equals it on real inputs. -/
theorem algebraic : Cert.algebraic_KernelIdeal_ReferenceIdeal := by
  intro m ρ m' ρ' hpre hagree
  refine ⟨fun c => Cert.BN.centredArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run_value m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]
  obtain ⟨h0, h1, h2⟩ := Cert.Proof.real_of_pre m hpre c
  exact (Cert.BN.centredArr_eq_affineArr _ _ _ h0 h1 h2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
